-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x192x512 : Shape := ⟨3, ![16, 192, 512]⟩
abbrev S16x512 : Shape := ⟨2, ![16, 512]⟩
abbrev S16x2048 : Shape := ⟨2, ![16, 2048]⟩
abbrev S_ : Shape := ⟨0, ![]⟩

class Facts : Prop where
  bcast_S_S16x192x512 : S_.BroadcastsInDim S16x192x512 (![] : Fin 0 → Fin S16x192x512.rank)
  reducesTo_S16x192x512_S_d0_1_2 : S16x192x512.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg1 : IVec S16x512 32) (main_arg2 : FVec F S16x512 .f32) (main_v13 : IVec S_ 1) (main_v15 : IVec S16x512 1) (main_cst_5 : FVec F S_ .f32) : IVec S_ 1 :=
  let main_v16 : FVec F S16x512 .f32 := broadcastInDim S16x512 ![] bcast_S_S16x512 main_cst_5
  let main_v17 : IVec S16x512 1 := cmpf .oeq main_arg2 main_v16
  let main_v18 : IVec S16x512 1 := ori main_v15 main_v17
  let main_c_6 : IVec S_ 1 := constantI S_ 1 1#1
  let main_v19 : IVec S_ 1 := (fun x v => Host.reduce IntOp.andi x v reducesTo_S16x512_S_d0_1 h_S_) main_v18 main_c_6
  let main_v20 : IVec S_ 1 := andi main_v13 main_v19
  let main_c_7 : IVec S_ 32 := constantI S_ 32 0#32
  let main_v21 : IVec S16x512 32 := broadcastInDim S16x512 ![] bcast_S_S16x512 main_c_7
  let main_v22 : IVec S16x512 1 := cmpi .sge main_arg1 main_v21
  let main_c_8 : IVec S_ 1 := constantI S_ 1 1#1
  let main_v23 : IVec S_ 1 := (fun x v => Host.reduce IntOp.andi x v reducesTo_S16x512_S_d0_1 h_S_) main_v22 main_c_8
  let main_v24 : IVec S_ 1 := andi main_v20 main_v23
  let main_c_9 : IVec S_ 32 := constantI S_ 32 8#32
  let main_v25 : IVec S16x512 32 := broadcastInDim S16x512 ![] bcast_S_S16x512 main_c_9
  let main_v26 : IVec S16x512 1 := cmpi .sle main_arg1 main_v25
  let main_c_10 : IVec S_ 1 := constantI S_ 1 1#1
  let main_v27 : IVec S_ 1 := (fun x v => Host.reduce IntOp.andi x v reducesTo_S16x512_S_d0_1 h_S_) main_v26 main_c_10
  let main_v28 : IVec S_ 1 := andi main_v24 main_v27
  main_v28

def fn {F : FTy → Type} [FloatOps F] (main_arg0 : FVec F S16x192x512 .f32) (main_arg1 : IVec S16x512 32) (main_arg2 : FVec F S16x512 .f32) (main_arg3 : FVec F S16x2048 .f32) : IVec S_ 1 :=
  let main_v0 : FVec F S16x192x512 .f32 := Host.absf main_arg0
  let main_cst : FVec F S_ .f32 := constant S_ .f32 0x7F800000#32
  let main_v1 : FVec F S16x192x512 .f32 := broadcastInDim S16x192x512 ![] bcast_S_S16x192x512 main_cst
  let main_v2 : IVec S16x192x512 1 := cmpf .olt main_v0 main_v1
  let main_c : IVec S_ 1 := constantI S_ 1 1#1
  let main_v3 : IVec S_ 1 := (fun x v => Host.reduce IntOp.andi x v reducesTo_S16x192x512_S_d0_1_2 h_S_) main_v2 main_c
  let main_v4 : FVec F S16x512 .f32 := Host.absf main_arg2
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16x2048 .f32 := Host.absf main_arg3
  let main_cst_2 : FVec F S_ .f32 := constant S_ .f32 0x7F800000#32
  let main_v10 : FVec F S16x2048 .f32 := broadcastInDim S16x2048 ![] bcast_S_S16x2048 main_cst_2
  let main_v11 : IVec S16x2048 1 := cmpf .olt main_v9 main_v10
  let main_c_3 : IVec S_ 1 := constantI S_ 1 1#1
  let main_v12 : IVec S_ 1 := (fun x v => Host.reduce IntOp.andi x v reducesTo_S16x2048_S_d0_1 h_S_) main_v11 main_c_3
  let main_v13 : IVec S_ 1 := andi main_v8 main_v12
  let main_cst_4 : FVec F S_ .f32 := constant S_ .f32 0x00000000#32
  let main_v14 : FVec F S16x512 .f32 := broadcastInDim S16x512 ![] bcast_S_S16x512 main_cst_4
  let main_v15 : IVec S16x512 1 := cmpf .oeq main_arg2 main_v14
  let main_cst_5 : FVec F S_ .f32 := constant S_ .f32 0x3F800000#32
  fn_part1 (F := F) main_arg1 main_arg2 main_v13 main_v15 main_cst_5
-- ==== Kernel.lean ====
abbrev S16x192x512 : Shape := ⟨3, ![16, 192, 512]⟩
abbrev S16x512 : Shape := ⟨2, ![16, 512]⟩
abbrev S16x2048 : Shape := ⟨2, ![16, 2048]⟩
abbrev S_ : Shape := ⟨0, ![]⟩
abbrev S16x1x512 : Shape := ⟨3, ![16, 1, 512]⟩
abbrev S16x1x2048 : Shape := ⟨3, ![16, 1, 2048]⟩
abbrev S16x192x2048 : Shape := ⟨3, ![16, 192, 2048]⟩
abbrev S1x192x512 : Shape := ⟨3, ![1, 192, 512]⟩
abbrev S1x1x512 : Shape := ⟨3, ![1, 1, 512]⟩
abbrev S1x1x1024 : Shape := ⟨3, ![1, 1, 1024]⟩
abbrev S1x192x1024 : Shape := ⟨3, ![1, 192, 1024]⟩
abbrev S512x1024 : Shape := ⟨2, ![512, 1024]⟩
abbrev S512 : Shape := ⟨1, ![512]⟩
abbrev S512x1 : Shape := ⟨2, ![512, 1]⟩
abbrev S192x512 : Shape := ⟨2, ![192, 512]⟩
abbrev S1x512 : Shape := ⟨2, ![1, 512]⟩
abbrev S192x1024 : Shape := ⟨2, ![192, 1024]⟩
abbrev S1024 : Shape := ⟨1, ![1024]⟩
abbrev S1x1024 : Shape := ⟨2, ![1, 1024]⟩

abbrev nBuf : Space → Nat
  | .hbm => 19
  | .vmem => 12
  | .smem => 0
  | _ => 0

abbrev bufTy : (tb : Table) → Fin (tcTables nBuf tb) → BufTy
  | .hbm, ⟨0, _⟩ => ⟨S16x192x512, .f32⟩
  | .hbm, ⟨1, _⟩ => ⟨S16x512, .i32⟩
  | .hbm, ⟨2, _⟩ => ⟨S16x512, .f32⟩
  | .hbm, ⟨3, _⟩ => ⟨S16x2048, .f32⟩
  | .hbm, ⟨4, _⟩ => ⟨S16x512, .f32⟩
  | .hbm, ⟨5, _⟩ => ⟨S16x512, .f32⟩
  | .hbm, ⟨6, _⟩ => ⟨S16x512, .i32⟩
  | .hbm, ⟨7, _⟩ => ⟨S_, .i32⟩
  | .hbm, ⟨8, _⟩ => ⟨S16x512, .i32⟩
  | .hbm, ⟨9, _⟩ => ⟨S16x512, .i32⟩
  | .hbm, ⟨10, _⟩ => ⟨S_, .i32⟩
  | .hbm, ⟨11, _⟩ => ⟨S_, .i32⟩
  | .hbm, ⟨12, _⟩ => ⟨S16x512, .i32⟩
  | .hbm, ⟨13, _⟩ => ⟨S16x512, .i32⟩
  | .hbm, ⟨14, _⟩ => ⟨S16x1x512, .f32⟩
  | .hbm, ⟨15, _⟩ => ⟨S16x1x512, .i32⟩
  | .hbm, ⟨16, _⟩ => ⟨S16x1x512, .i32⟩
  | .hbm, ⟨17, _⟩ => ⟨S16x1x2048, .f32⟩
  | .hbm, ⟨18, _⟩ => ⟨S16x192x2048, .f32⟩
  | .local _ .vmem, ⟨0, _⟩ => ⟨S1x192x512, .f32⟩
  | .local _ .vmem, ⟨1, _⟩ => ⟨S1x192x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .i32⟩
  | .local _ .vmem, ⟨5, _⟩ => ⟨S1x1x512, .i32⟩
  | .local _ .vmem, ⟨6, _⟩ => ⟨S1x1x512, .i32⟩
  | .local _ .vmem, ⟨7, _⟩ => ⟨S1x1x512, .i32⟩
  | .local _ .vmem, ⟨8, _⟩ => ⟨S1x1x1024, .f32⟩
  | .local _ .vmem, ⟨9, _⟩ => ⟨S1x1x1024, .f32⟩
  | .local _ .vmem, ⟨10, _⟩ => ⟨S1x192x1024, .f32⟩
  | .local _ .vmem, ⟨11, _⟩ => ⟨S1x192x1024, .f32⟩
  | _, _ => ⟨S16x192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_call0_call0_c : Ref sig .tc := ⟨.hbm, 10, rfl⟩
abbrev main_call0_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S16x512 : S_.BroadcastsInDim S16x512 (![] : Fin 0 → Fin S16x512.rank)
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  bcast_S16x512_S16x1x512_0_2 : S16x512.BroadcastsInDim S16x1x512 (![0, 2] : Fin 2 → Fin S16x1x512.rank)
  bcast_S16x2048_S16x1x2048_0_2 : S16x2048.BroadcastsInDim S16x1x2048 (![0, 2] : Fin 2 → Fin S16x1x2048.rank)
  iota_S512x1024_d1_w32 : S512x1024.Iotas .tc 32 [1]
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S512x1 : S512.ShapeCasts S512x1
  broadcasts_S512x1_S512x1024 : S512x1.Broadcasts S512x1024
  bitsLt_bf16_f32 : FTy.bits .bf16 < FTy.bits .f32
  inb_S1x192x512_S1x192x512_0_0_0 : ∀ a, (![0, 0, 0] : Fin 3 → Nat) a + S1x192x512.size a ≤ S1x192x512.size a
  h_S1x192x512 : 0 < S1x192x512.numel
  shapeCasts_S1x192x512_S192x512 : S1x192x512.ShapeCasts S192x512
  shapeCasts_S512_S1x512 : S512.ShapeCasts S1x512
  broadcasts_S1x512_S192x512 : S1x512.Broadcasts S192x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S192x1024 : S1x1024.Broadcasts S192x1024
  inb_S1x192x1024_S1x192x1024_0_0_0 : ∀ a, (![0, 0, 0] : Fin 3 → Nat) a + S1x192x1024.size a ≤ S1x192x1024.size a
  h_S1x192x1024 : 0 < S1x192x1024.numel
  shapeCasts_S1x192x1024_S192x1024 : S1x192x1024.ShapeCasts S192x1024
  shapeCasts_S192x1024_S1x192x1024 : S192x1024.ShapeCasts S1x192x1024
  dot_S192x512_S512x1024_S192x1024_1_0_0_1_n_n_wf : DotDims.WF S192x512 S512x1024 S192x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x192x512.size a ≤ S16x192x512.size a
  hwx0_0 : ∀ i : grid0.Coords, EltTy.bits .f32 = 32 ∨ (Rect.block (s := S16x192x512) S1x192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x512.size a
  hwx0_1 : ∀ i : grid0.Coords, EltTy.bits .f32 = 32 ∨ (Rect.block (s := S16x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S16x1x512.size a
  hwx0_2 : ∀ i : grid0.Coords, EltTy.bits .i32 = 32 ∨ (Rect.block (s := S16x1x512) S1x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S16x1x512.size a
  hwx0_3 : ∀ i : grid0.Coords, EltTy.bits .i32 = 32 ∨ (Rect.block (s := S16x1x512) S1x1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S16x1x2048.size a
  hwx0_4 : ∀ i : grid0.Coords, EltTy.bits .f32 = 32 ∨ (Rect.block (s := S16x1x2048) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x192x1024.size a ≤ S16x192x2048.size a
  hwx0_5 : ∀ i : grid0.Coords, EltTy.bits .f32 = 32 ∨ (Rect.block (s := S16x192x2048) S1x192x1024.size (cc0_transform_5 i) (hinb0_5 i)).WholeWords (EltTy.packing .f32)

variable [Facts₀]

def dot_S192x512_S512x1024_S192x1024_1_0_0_1_n_n : DotDims S192x512 S512x1024 S192x1024 where
  lhsContracting := [1]
  rhsContracting := [0]
  lhsNonContracting := [0]
  rhsNonContracting := [1]
  lhsBatch := []
  rhsBatch := []
  wf := dot_S192x512_S512x1024_S192x1024_1_0_0_1_n_n_wf

abbrev win0_0 : Pipeline.Window sig grid0 :=
  Pipeline.Window.ofSpec (Memref.whole main_arg0) S1x192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x192x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x192x512 : Shape := ⟨3, ![16, 192, 512]⟩
abbrev S16x512 : Shape := ⟨2, ![16, 512]⟩
abbrev S16x2048 : Shape := ⟨2, ![16, 2048]⟩
abbrev S_ : Shape := ⟨0, ![]⟩
abbrev S2048 : Shape := ⟨1, ![2048]⟩
abbrev S1x2048x1 : Shape := ⟨3, ![1, 2048, 1]⟩
abbrev S16x1x512 : Shape := ⟨3, ![16, 1, 512]⟩
abbrev S16x2048x512 : Shape := ⟨3, ![16, 2048, 512]⟩
abbrev S16x2048x511 : Shape := ⟨3, ![16, 2048, 511]⟩
abbrev S16x192x2048 : Shape := ⟨3, ![16, 192, 2048]⟩
abbrev S16x1x2048 : Shape := ⟨3, ![16, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16x192x512, .f32⟩
  | .hbm, ⟨1, _⟩ => ⟨S16x512, .i32⟩
  | .hbm, ⟨2, _⟩ => ⟨S16x512, .f32⟩
  | .hbm, ⟨3, _⟩ => ⟨S16x2048, .f32⟩
  | .hbm, ⟨4, _⟩ => ⟨S16x512, .f32⟩
  | .hbm, ⟨5, _⟩ => ⟨S16x512, .f32⟩
  | .hbm, ⟨6, _⟩ => ⟨S16x512, .i32⟩
  | .hbm, ⟨7, _⟩ => ⟨S_, .i32⟩
  | .hbm, ⟨8, _⟩ => ⟨S_, .i32⟩
  | .hbm, ⟨9, _⟩ => ⟨S16x512, .i32⟩
  | .hbm, ⟨10, _⟩ => ⟨S2048, .i32⟩
  | .hbm, ⟨11, _⟩ => ⟨S1x2048x1, .i32⟩
  | .hbm, ⟨12, _⟩ => ⟨S16x1x512, .i32⟩
  | .hbm, ⟨13, _⟩ => ⟨S16x2048x512, .i32⟩
  | .hbm, ⟨14, _⟩ => ⟨S16x2048x512, .i32⟩
  | .hbm, ⟨15, _⟩ => ⟨S16x2048x512, .i1⟩
  | .hbm, ⟨16, _⟩ => ⟨S16x2048x512, .f32⟩
  | .hbm, ⟨17, _⟩ => ⟨S16x2048x511, .f32⟩
  | .hbm, ⟨18, _⟩ => ⟨S_, .i32⟩
  | .hbm, ⟨19, _⟩ => ⟨S_, .f32⟩
  | .hbm, ⟨20, _⟩ => ⟨S16x2048x512, .f32⟩
  | .hbm, ⟨21, _⟩ => ⟨S16x2048x512, .f32⟩
  | .hbm, ⟨22, _⟩ => ⟨S16x1x512, .f32⟩
  | .hbm, ⟨23, _⟩ => ⟨S16x192x512, .f32⟩
  | .hbm, ⟨24, _⟩ => ⟨S16x192x512, .f32⟩
  | .hbm, ⟨25, _⟩ => ⟨S16x192x2048, .f32⟩
  | .hbm, ⟨26, _⟩ => ⟨S16x1x2048, .f32⟩
  | .hbm, ⟨27, _⟩ => ⟨S16x192x2048, .f32⟩
  | .hbm, ⟨28, _⟩ => ⟨S16x192x2048, .f32⟩
  | _, _ => ⟨S16x192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  h_S_ : 0 < S_.numel
  bcast_S2048_S1x2048x1_1 : S2048.BroadcastsInDim S1x2048x1 (![1] : Fin 1 → Fin S1x2048x1.rank)
  bcast_S16x512_S16x1x512_0_2 : S16x512.BroadcastsInDim S16x1x512 (![0, 2] : Fin 2 → Fin S16x1x512.rank)
  bcast_S1x2048x1_S16x2048x512_0_1_2 : S1x2048x1.BroadcastsInDim S16x2048x512 (![0, 1, 2] : Fin 3 → Fin S16x2048x512.rank)
  bcast_S16x1x512_S16x2048x512_0_1_2 : S16x1x512.BroadcastsInDim S16x2048x512 (![0, 1, 2] : Fin 3 → Fin S16x2048x512.rank)
  slices_S16x2048x512_S16x2048x511_0_0_0 : S16x2048x512.Slices ![0, 0, 0] S16x2048x511
  pads_S16x2048x511_S16x2048x512_000_000_100 : S16x2048x511.Pads (![0, 0, 1] : Fin 3 → Nat) ![0, 0, 0] ![0, 0, 0] S16x2048x512
  bcast_S16x1x512_S16x192x512_0_1_2 : S16x1x512.BroadcastsInDim S16x192x512 (![0, 1, 2] : Fin 3 → Fin S16x192x512.rank)
  bcast_S16x2048_S16x1x2048_0_2 : S16x2048.BroadcastsInDim S16x1x2048 (![0, 2] : Fin 2 → Fin S16x1x2048.rank)
  bcast_S16x1x2048_S16x192x2048_0_1_2 : S16x1x2048.BroadcastsInDim S16x192x2048 (![0, 1, 2] : Fin 3 → Fin S16x192x2048.rank)
  dot_S16x192x512_S16x2048x512_S16x192x2048_2_2_1_1_0_0_wf : DotDims.WF S16x192x512 S16x2048x512 S16x192x2048 [2] [2] [1] [1] [0] [0]

variable [Facts₀]

def dot_S16x192x512_S16x2048x512_S16x192x2048_2_2_1_1_0_0 : DotDims S16x192x512 S16x2048x512 S16x192x2048 where
  lhsContracting := [2]
  rhsContracting := [2]
  lhsNonContracting := [1]
  rhsNonContracting := [1]
  lhsBatch := [0]
  rhsBatch := [0]
  wf := dot_S16x192x512_S16x2048x512_S16x192x2048_2_2_1_1_0_0_wf

class Facts : Prop extends Facts₀ where

variable [Facts]
-- ==== Proof.Spec.lean ====
/-
  The specification both programs are compared against, stated over literal shapes and importing no program.

  Per batch row `b` the integer durations `w b k` are masked (`wmR`: the duration as a real number times the mask,
  truncated back to a word), the masked durations' prefix sums `cum b k = Σ_{k' ≤ k} wm b k'` are formed in 32-bit
  words, and output frame `j` of channel `c` collects the text positions whose half-open interval of frames
  `[cum b (k-1), cum b k)` holds `j`:  `(Σ_k (x b c k · mask b k) · path b j k) · ymask b j`.
  The two programs differ only in how they spell `path`: one as the 0/1 indicator of the interval by two signed
  comparisons, over durations clamped below at zero (`pathK`); the other as a difference of two indicators
  `[j < cum b k] − [j < cum b (k-1)]` (the second read as zero at `k = 0`), over unclamped durations (`pathR`).
-/
import Idealize.ShloMosaic.PureOps
import Idealize.ShloMosaic.PureOps.Ideal
import Idealize.ShloMosaic.Lib.ValueIdx

noncomputable section

namespace Cert.Dup

open Idealize.ShloMosaic Idealize.ShloMosaic.ValueIdx

abbrev SW : Shape := ⟨2, ![16, 512]⟩
abbrev SX : Shape := ⟨3, ![16, 192, 512]⟩
abbrev SY : Shape := ⟨2, ![16, 2048]⟩
abbrev SO : Shape := ⟨3, ![16, 192, 2048]⟩
abbrev S0 : Shape := ⟨0, ![]⟩

/-- The shape relation of the prefix-sum window: a window of 512 along the text axis, padded 511 low. -/
abbrev CumWin : Prop := SW.ReduceWindows ![1, 512] ![1, 1] ![0, 511] ![0, 0] SW

/-- The masked durations: each duration read as a real, times its mask entry, truncated back to a 32-bit word. -/
def wmR (w : IVec SW 32) (xm : FVec Ideal SW .f32) : IVec SW 32 :=
  fptosi 32 (mulf (sitofp .f32 w : FVec Ideal SW .f32) xm)

/-- The masked durations clamped below at zero. -/
def wmK (w : IVec SW 32) (xm : FVec Ideal SW .f32) : IVec SW 32 :=
  maxsi (wmR w xm) (fun _ => (0#32 : BitVec 32))

/-- Prefix sums along the text axis, in 32-bit words: entry `(b, k)` is the sum of `v (b, k')` over `k' ≤ k`,
    spelt as the window sum it is computed by. -/
def cumOf (h : CumWin) (v : IVec SW 32) : IVec SW 32 :=
  Host.reduceWindow IntOp.addi ![1, 512] ![1, 1] ![0, 511] ![0, 0] v (fun _ : S0.Idx => (0#32 : BitVec 32)) h (by decide)

/-- Frame number `j` as the word a grid point forms it: the lane `j % 1024` plus `1024 ·` the block number `j / 1024`. -/
def frameWord (j : Fin 2048) : BitVec 32 :=
  IntOp.addi (BitVec.ofNat 32 (j.val % 1024)) (Scalar.muli (BitVec.ofNat 32 (j.val / 1024)) 1024#32)

/-- The interval indicator: `1` when `cum b (k-1) ≤ j < cum b k`, the lower end spelt `cum b k − wm b k`, over clamped durations. -/
def pathK (h : CumWin) (w : IVec SW 32) (xm : FVec Ideal SW .f32) (b : Fin 16) (j : Fin 2048) (k : Fin 512) : EReal :=
  Scalar.select
    (IntOp.andi
      (IntOp.cmpi .sge (frameWord j) (IntOp.subi (cumOf h (wmK w xm) (ix2 b k)) (wmK w xm (ix2 b k))))
      (IntOp.cmpi .slt (frameWord j) (cumOf h (wmK w xm) (ix2 b k))))
    (Ideal.ofBits .f32 0x3F800000#32) (Ideal.ofBits .f32 0x00000000#32)

/-- The indicator `[j < cum b k]` as a number, over unclamped durations. -/
def ltR (h : CumWin) (w : IVec SW 32) (xm : FVec Ideal SW .f32) (b : Fin 16) (j : Fin 2048) (k : Fin 512) : EReal :=
  FloatOps.uitofp (F := Ideal) .f32 (IntOp.cmpi .slt (BitVec.ofNat 32 j.val) (cumOf h (wmR w xm) (ix2 b k)))

/-- The difference of indicators `[j < cum b k] − [j < cum b (k-1)]`, the subtrahend the integer zero read as a number at `k = 0`. -/
def pathR (h : CumWin) (w : IVec SW 32) (xm : FVec Ideal SW .f32) (b : Fin 16) (j : Fin 2048) (k : Fin 512) : EReal :=
  ltR h w xm b j k -
    (if hk : k.val = 0 then FloatOps.sitofp (F := Ideal) .f32 (0#32 : BitVec 32)
     else ltR h w xm b j ⟨k.val - 1, by omega⟩)

/-- The result at batch row `b`, channel `c`, frame `j`, for a given path. -/
def Gat (x : FVec Ideal SX .f32) (xm : FVec Ideal SW .f32) (ym : FVec Ideal SY .f32)
    (path : Fin 16 → Fin 2048 → Fin 512 → EReal) (b : Fin 16) (c : Fin 192) (j : Fin 2048) : EReal :=
  (∑ k : Fin 512, ((x (ix3 b c k) : EReal) * (xm (ix2 b k) : EReal)) * path b j k) * (ym (ix2 b j) : EReal)

/-- The whole result array as one function of the argument arrays and the path. -/
def G (x : FVec Ideal SX .f32) (xm : FVec Ideal SW .f32) (ym : FVec Ideal SY .f32)
    (path : Fin 16 → Fin 2048 → Fin 512 → EReal) : FVec Ideal SO .f32 :=
  fun i => Gat x xm ym path (i 0) (i 1) (i 2)

theorem G_ix3 (x : FVec Ideal SX .f32) (xm : FVec Ideal SW .f32) (ym : FVec Ideal SY .f32)
    (path : Fin 16 → Fin 2048 → Fin 512 → EReal) (b : Fin 16) (c : Fin 192) (j : Fin 2048) :
    G x xm ym path (ix3 b c j) = Gat x xm ym path b c j := rfl

/-- An array that agrees with `Gat` at every coordinate triple is `G`. -/
theorem eq_G_of_apply (a : FVec Ideal SO .f32) (x : FVec Ideal SX .f32) (xm : FVec Ideal SW .f32) (ym : FVec Ideal SY .f32)
    (path : Fin 16 → Fin 2048 → Fin 512 → EReal)
    (h : ∀ (b : Fin 16) (c : Fin 192) (j : Fin 2048), a (ix3 b c j) = Gat x xm ym path b c j) :
    a = G x xm ym path := by
  funext i
  rw [eq_ix3 i]
  exact h (i 0) (i 1) (i 2)

end Cert.Dup

end
-- ==== Proof.Words.lean ====
/-
  The word-level mathematics of the path.

  1. The prefix sums. The window sum that computes `cumOf` — a window of 512 positions along the text axis, padded 511 low, so
     that position `n` of the window at text position `k` reads text position `k + n − 511` (the padding, zero, when that
     is negative) — is the sum of the row's entries at text positions `≤ k`.
  2. When every entry of a row is one of the words `0 … 8`, no prefix sum of 512 entries leaves `[0, 4096]`: the words'
     unsigned values add without wrapping, the prefix sums are non-decreasing, and a prefix sum less its last entry is the
     previous prefix sum (zero at the first position).
  3. Under the domain — every mask entry `0` or `1`, every duration one of `0 … 8` — a masked duration is the duration or
     zero, clamping it below at zero changes nothing, and the indicator of the half-open interval
     `cum (k−1) ≤ j < cum k` is the difference `[j < cum k] − [j < cum (k−1)]`, because `cum (k−1) ≤ cum k`.
-/
import proofs.«152919_j50697793962727_2_alg».proof.Proof.Spec
import Idealize.ShloMosaic.Lib.Affine
import Idealize.ShloMosaic.PureOps.Ideal.Laws
import Mathlib.Algebra.BigOperators.Intervals
import Mathlib.Algebra.BigOperators.Fin
import Mathlib.Data.BitVec

noncomputable section

namespace Cert.Dup

open Idealize.ShloMosaic Idealize.ShloMosaic.ValueIdx

/-! ## The two float literals of the indicator -/

theorem one_f32 : Ideal.ofBits .f32 0x3F800000#32 = (1 : EReal) := by
  simp [Ideal.ofBits, Ideal.ieee, -EReal.coe_mul]; norm_num

theorem zero_f32 : Ideal.ofBits .f32 0x00000000#32 = (0 : EReal) := Ideal.ofBits_zero_f32

/-! ## A left fold of word additions is a sum -/

theorem foldl_addi_eq_sum {N : Nat} (g : Fin N → BitVec 32) :
    (List.finRange N).foldl (fun r n => IntOp.addi r (g n)) 0#32 = ∑ n : Fin N, g n := by
  rw [Fin.sum_univ_def, List.sum_eq_foldl, List.foldl_map]
  rfl

/-! ## The window sum is the prefix sum -/

/-- Over natural positions: of the 512 window positions only the last `k + 1` fall on the row, and they read positions `0 … k`. -/
theorem window_sum (vx : ℕ → BitVec 32) (k : ℕ) (hk : k < 512) :
    ∑ n ∈ Finset.range 512, (if 511 ≤ k + n then vx (k + n - 511) else 0) = ∑ i ∈ Finset.range (k + 1), vx i := by
  have h512 : Finset.range 512 = Finset.range ((511 - k) + (k + 1)) := by congr 1; omega
  rw [h512, Finset.sum_range_add]
  have hz : ∑ n ∈ Finset.range (511 - k), (if 511 ≤ k + n then vx (k + n - 511) else 0) = 0 :=
    Finset.sum_eq_zero (fun n hn => by rw [Finset.mem_range] at hn; exact if_neg (by omega))
  rw [hz, zero_add]
  refine Finset.sum_congr rfl (fun j hj => ?_)
  rw [Finset.mem_range] at hj
  rw [if_pos (by omega)]
  congr 1; omega

/-- Row `b` of `v` over the natural numbers, zero past the last text position. -/
def rowExt (v : IVec SW 32) (b : Fin 16) (i : ℕ) : BitVec 32 :=
  if hi : i < 512 then v (ix2 b ⟨i, hi⟩) else 0

theorem cumOf_apply (h : CumWin) (v : IVec SW 32) (b : Fin 16) (k : Fin 512) :
    cumOf h v (ix2 b k) = ∑ i ∈ Finset.range (k.val + 1), rowExt v b i := by
  unfold cumOf Host.reduceWindow
  dsimp only
  rw [foldl_addi_eq_sum]
  refine ((Equiv.sum_comp (Shape.rowMajor (⟨2, ![1, 512]⟩ : Shape)) _).symm.trans ?_)
  simp only [Equiv.symm_apply_apply]
  rw [sum_idx2, Fin.sum_univ_one]
  trans (∑ n : Fin 512, if 511 ≤ k.val + n.val then rowExt v b (k.val + n.val - 511) else 0)
  · refine Finset.sum_congr rfl (fun n _ => ?_)
    by_cases hc : 511 ≤ k.val + n.val
    · rw [if_pos hc]
      split
      · unfold rowExt
        rw [dif_pos (by omega)]
        congr 1
        funext a
        match a with
        | ⟨0, _⟩ => exact Fin.ext (show b.val * 1 + 0 - 0 = b.val by omega)
        | ⟨1, _⟩ => exact Fin.ext (show k.val * 1 + n.val - 511 = k.val + n.val - 511 by omega)
      · rename_i hnot
        exfalso
        apply hnot
        intro a
        match a with
        | ⟨0, _⟩ => exact (show (0 : ℕ) ≤ b.val * 1 + 0 ∧ b.val * 1 + 0 - 0 < 16 by omega)
        | ⟨1, _⟩ => exact (show 511 ≤ k.val * 1 + n.val ∧ k.val * 1 + n.val - 511 < 512 by omega)
    · rw [if_neg hc]
      split
      · rename_i hin
        exfalso
        have h1 := (hin (1 : Fin 2)).1
        change 511 ≤ k.val * 1 + n.val at h1
        omega
      · rfl
  · rw [Fin.sum_univ_eq_sum_range (fun n => if 511 ≤ k.val + n then rowExt v b (k.val + n - 511) else 0) 512]
    exact window_sum _ _ k.isLt

/-! ## Prefix sums of small words do not wrap -/

theorem toInt_of_small (x : BitVec 32) (h : x.toNat < 2 ^ 31) : x.toInt = (x.toNat : ℤ) := by
  rw [BitVec.toInt_eq_toNat_cond]
  split
  · rfl
  · omega

theorem toNat_le_of_toInt (x : BitVec 32) (h0 : 0 ≤ x.toInt) (h8 : x.toInt ≤ 8) : x.toNat ≤ 8 := by
  rw [BitVec.toInt_eq_toNat_cond] at h0 h8
  have := x.isLt
  split at h0 <;> omega

/-- Sums of at most 512 words, each at most `8`, add as natural numbers. -/
theorem sum_toNat (vx : ℕ → BitVec 32) (hv : ∀ i, (vx i).toNat ≤ 8) (n : ℕ) (hn : n ≤ 512) :
    (∑ i ∈ Finset.range n, vx i).toNat = ∑ i ∈ Finset.range n, (vx i).toNat
      ∧ ∑ i ∈ Finset.range n, (vx i).toNat ≤ 8 * n := by
  induction n with
  | zero => simp
  | succ n ih =>
    obtain ⟨e, le⟩ := ih (by omega)
    have := hv n
    rw [Finset.sum_range_succ, Finset.sum_range_succ, BitVec.toNat_add, e]
    constructor
    · exact Nat.mod_eq_of_lt (by omega)
    · omega

/-! ## Masked durations under the domain -/

/-- Truncating a small non-negative integer, read as a real, back to a word gives that integer's word. -/
theorem fptosi_small (n : ℤ) (h0 : 0 ≤ n) (h8 : n ≤ 8) : Ideal.fptosi 32 (((n : ℝ) : EReal)) = BitVec.ofInt 32 n := by
  unfold Ideal.fptosi
  rw [Ideal.toIntClamped_coe]
  have hr : (0 : ℝ) ≤ (n : ℝ) := by exact_mod_cast h0
  rw [if_pos hr, Int.floor_intCast]
  congr 1
  have e1 : (((2 ^ (32 - 1) : ℕ) : ℤ)) = 2147483648 := by norm_num
  rw [e1]
  omega

/-- Under the domain a masked duration is a word of unsigned value at most `8`. -/
theorem wmR_small (w : IVec SW 32) (xm : FVec Ideal SW .f32) (i : SW.Idx)
    (hw : 0 ≤ (w i).toInt ∧ (w i).toInt ≤ 8)
    (hm : xm i = Ideal.ofBits .f32 0x00000000#32 ∨ xm i = Ideal.ofBits .f32 0x3F800000#32) :
    (wmR w xm i).toNat ≤ 8 := by
  have e : wmR w xm i = Ideal.fptosi 32 ((((w i).toInt : ℝ) : EReal) * (xm i : EReal)) := rfl
  rw [e]
  rcases hm with hm | hm
  · rw [hm, zero_f32, mul_zero]
    have := fptosi_small 0 (le_refl 0) (by norm_num)
    simp only [Int.cast_zero, EReal.coe_zero] at this
    rw [this]
    decide
  · rw [hm, one_f32, mul_one, fptosi_small _ hw.1 hw.2, BitVec.ofInt_toInt]
    exact toNat_le_of_toInt _ hw.1 hw.2

/-- A word of unsigned value at most `8` is its own maximum with zero. -/
theorem maxsi_zero_of_small (x : BitVec 32) (h : x.toNat ≤ 8) : IntOp.maxsi x 0#32 = x := by
  unfold IntOp.maxsi
  split
  · rfl
  · rename_i hn
    have hx : x.toInt = (x.toNat : ℤ) := toInt_of_small x (by omega)
    rw [BitVec.slt_iff_toInt_lt] at hn
    have h0 : (0#32 : BitVec 32).toInt = 0 := by decide
    rw [h0, hx] at hn
    apply BitVec.eq_of_toNat_eq
    have : (0#32 : BitVec 32).toNat = 0 := by decide
    omega

/-! ## The frame word -/

theorem frameWord_eq (j : Fin 2048) : frameWord j = BitVec.ofNat 32 j.val := by
  unfold frameWord IntOp.addi Scalar.muli IntOp.muli
  apply BitVec.eq_of_toNat_eq
  have hj := j.isLt
  simp only [BitVec.toNat_add, BitVec.toNat_mul, BitVec.toNat_ofNat]
  omega

theorem ofNat_toInt (j : Fin 2048) : (BitVec.ofNat 32 j.val).toInt = (j.val : ℤ) := by
  have hj := j.isLt
  rw [toInt_of_small _ (by rw [BitVec.toNat_ofNat]; omega), BitVec.toNat_ofNat]
  congr 1
  omega

/-! ## Bits as numbers -/

theorem uitofp_bit (c : BitVec 1) : FloatOps.uitofp (F := Ideal) .f32 c = if c = 1#1 then (1 : EReal) else 0 := by
  have e : FloatOps.uitofp (F := Ideal) .f32 c = (((c.toNat : ℝ)) : EReal) := rfl
  rw [e]
  rcases BitVec.eq_zero_or_eq_one c with h | h <;> subst h <;> simp

theorem sitofp_zero32 : FloatOps.sitofp (F := Ideal) .f32 (0#32 : BitVec 32) = (0 : EReal) := by
  have e : FloatOps.sitofp (F := Ideal) .f32 (0#32 : BitVec 32) = ((((0#32 : BitVec 32).toInt : ℝ)) : EReal) := rfl
  rw [e]
  simp

theorem select_eq_ite (c : BitVec 1) (a b : EReal) : Scalar.select c a b = if c = 1#1 then a else b := rfl

/-! ## The interval indicator is a difference of two indicators -/

theorem one_sub_one_ereal : (1 : EReal) - 1 = 0 := by
  rw [show (1 : EReal) = ((1 : ℝ) : EReal) from rfl, ← EReal.coe_sub, sub_self, EReal.coe_zero]

/-- With `B → A` and `C ↔ ¬B`: `[C ∧ A] = [A] − [B]`; the case `[A] = 0, [B] = 1` does not occur. -/
theorem ind_sub (A B C : Prop) [Decidable A] [Decidable B] [Decidable C] (hCB : C ↔ ¬B) (hBA : B → A) :
    (if C ∧ A then (1 : EReal) else 0) = (if A then (1 : EReal) else 0) - (if B then (1 : EReal) else 0) := by
  by_cases hA : A <;> by_cases hB : B
  · have hC : ¬C := fun c => (hCB.1 c) hB
    simp [hA, hB, hC, one_sub_one_ereal]
  · have hC : C := hCB.2 hB
    simp [hA, hB, hC]
  · exact absurd (hBA hB) hA
  · simp [hA, hB]

/-- The same with nothing subtracted, when `C` holds outright. -/
theorem ind_sub_zero (A C : Prop) [Decidable A] [Decidable C] (hC : C) :
    (if C ∧ A then (1 : EReal) else 0) = (if A then (1 : EReal) else 0) - 0 := by
  by_cases hA : A <;> simp [hA, hC]

/-! ## The two paths agree under the domain -/

theorem pathK_eq_pathR (h : CumWin) (w : IVec SW 32) (xm : FVec Ideal SW .f32)
    (hw : ∀ i : SW.Idx, 0 ≤ (w i).toInt ∧ (w i).toInt ≤ 8)
    (hm : ∀ i : SW.Idx, xm i = Ideal.ofBits .f32 0x00000000#32 ∨ xm i = Ideal.ofBits .f32 0x3F800000#32)
    (b : Fin 16) (j : Fin 2048) (k : Fin 512) : pathK h w xm b j k = pathR h w xm b j k := by
  have hsmall : ∀ i, (wmR w xm i).toNat ≤ 8 := fun i => wmR_small w xm i (hw i) (hm i)
  have hK : wmK w xm = wmR w xm := by
    funext i
    exact maxsi_zero_of_small _ (hsmall i)
  have hrow : ∀ i, (rowExt (wmR w xm) b i).toNat ≤ 8 := by
    intro i
    unfold rowExt
    split
    · exact hsmall _
    · decide
  -- the prefix sums of row `b`, as words: `S n` sums the first `n` entries
  let S : ℕ → BitVec 32 := fun n => ∑ i ∈ Finset.range n, rowExt (wmR w xm) b i
  have hcu : ∀ k' : Fin 512, cumOf h (wmR w xm) (ix2 b k') = S (k'.val + 1) := fun k' => cumOf_apply h _ b k'
  have hnat : ∀ n, n ≤ 512 → (S n).toNat = ∑ i ∈ Finset.range n, (rowExt (wmR w xm) b i).toNat
      ∧ ∑ i ∈ Finset.range n, (rowExt (wmR w xm) b i).toNat ≤ 8 * n := fun n hn => sum_toNat _ hrow n hn
  have hk := k.isLt
  have hmono : (S k.val).toNat ≤ (S (k.val + 1)).toNat := by
    rw [(hnat _ (by omega)).1, (hnat _ (by omega)).1, Finset.sum_range_succ]
    omega
  have hb1 : (S (k.val + 1)).toNat ≤ 4096 := by
    have := hnat (k.val + 1) (by omega)
    omega
  have hb0 : (S k.val).toNat ≤ 4096 := by
    have := hnat k.val (by omega)
    omega
  have hlast : rowExt (wmR w xm) b k.val = wmR w xm (ix2 b k) := by
    unfold rowExt
    rw [dif_pos k.isLt]
  have hsub : IntOp.subi (S (k.val + 1)) (wmR w xm (ix2 b k)) = S k.val := by
    show (∑ i ∈ Finset.range (k.val + 1), rowExt (wmR w xm) b i) - wmR w xm (ix2 b k) = _
    rw [Finset.sum_range_succ, hlast]
    exact add_sub_cancel_right _ _
  have hJ := ofNat_toInt j
  have t1 : (S (k.val + 1)).toInt = ((S (k.val + 1)).toNat : ℤ) := toInt_of_small _ (by omega)
  have t0 : (S k.val).toInt = ((S k.val).toNat : ℤ) := toInt_of_small _ (by omega)
  unfold pathK pathR ltR
  rw [hK, hcu k, hsub, frameWord_eq, select_eq_ite, one_f32, zero_f32, uitofp_bit]
  simp only [IntOp.andi_eq_one, IntOp.cmpi_sge, IntOp.cmpi_slt, hJ, t1, t0]
  by_cases hk0 : k.val = 0
  · rw [dif_pos hk0, sitofp_zero32]
    refine ind_sub_zero _ _ ?_
    have : (S k.val).toNat = 0 := by
      rw [hk0]
      show (∑ i ∈ Finset.range 0, rowExt (wmR w xm) b i).toNat = 0
      simp
    omega
  · rw [dif_neg hk0, uitofp_bit, hcu ⟨k.val - 1, by omega⟩]
    have e : (⟨k.val - 1, by omega⟩ : Fin 512).val + 1 = k.val := by
      show k.val - 1 + 1 = k.val
      omega
    rw [e]
    simp only [IntOp.cmpi_slt, hJ, t0]
    refine ind_sub _ _ _ ?_ ?_
    · omega
    · omega

end Cert.Dup

end
-- ==== Proof.PreFacts.lean ====
/-
  What the precondition says of the integer durations and of the text mask.

  The precondition is a conjunction of six `all`s, each a reduction by `and` of an array of bits down to one bit; that the
  whole is `1` says each array of bits is `1` everywhere. Read off here: every duration `w (b, k)` lies in `0 … 8`
  as a signed word, and every mask entry is the float literal `0.0` or the float literal `1.0`. (The three finiteness
  conjuncts are not needed: no step of the comparison divides, cancels or distributes over a sum.)
-/
import proofs.«152919_j50697793962727_2_alg».proof.Pre_finite_inputs
import Idealize.ShloMosaic.PureOps.Ideal
import Idealize.ShloMosaic.Lib.Affine
import Idealize.ShloMosaic.Lib.ReduceAll
import Idealize.ShloMosaic.Lib.ValueIdx

noncomputable section

namespace Cert.PreFacts

open Idealize.ShloMosaic Idealize.ShloMosaic.ValueIdx Cert.Pre_finite_inputs

variable [Cert.Pre_finite_inputs.Facts]

instance : Subsingleton S_.Idx := ⟨fun a b => funext fun d => d.elim0⟩

/-- A float comparison for equality that came out `1` compared equal extended reals. -/
theorem cmp_oeq_eq_one {x y : EReal} (h : Ideal.cmp .oeq x y = 1#1) : x = y := by
  unfold Ideal.cmp at h
  by_contra hne
  simp [hne] at h

/-- From the precondition: the durations lie in `0 … 8`, the mask entries are `0.0` or `1.0`. -/
theorem decode (x : FVec Ideal S16x192x512 .f32) (w : IVec S16x512 32) (xm : FVec Ideal S16x512 .f32)
    (ym : FVec Ideal S16x2048 .f32) (h : Cert.Pre_finite_inputs.fn (F := Ideal) x w xm ym = fun _ => 1#1) :
    (∀ i : S16x512.Idx, 0 ≤ (w i).toInt ∧ (w i).toInt ≤ 8)
    ∧ (∀ i : S16x512.Idx, xm i = Ideal.ofBits .f32 0x00000000#32 ∨ xm i = Ideal.ofBits .f32 0x3F800000#32) := by
  have h0 := congrFun h ix0
  dsimp only [Cert.Pre_finite_inputs.fn, Cert.Pre_finite_inputs.fn_part1] at h0
  obtain ⟨h24, h27⟩ := IntOp.andi_eq_one.1 h0
  obtain ⟨h20, h23⟩ := IntOp.andi_eq_one.1 h24
  obtain ⟨_, h19⟩ := IntOp.andi_eq_one.1 h20
  refine ⟨fun i => ⟨?_, ?_⟩, fun i => ?_⟩
  · have e := Host.reduce_andi_all _ _ _ _ _ h23 i
    have h1 : (0#32 : BitVec 32).toInt ≤ (w i).toInt := IntOp.cmpi_sge.1 e
    simpa using h1
  · have e := Host.reduce_andi_all _ _ _ _ _ h27 i
    have h1 : (w i).toInt ≤ (8#32 : BitVec 32).toInt := IntOp.cmpi_sle.1 e
    simpa using h1
  · have e := Host.reduce_andi_all _ _ _ _ _ h19 i
    rcases IntOp.ori_eq_one.1 e with e0 | e1
    · exact Or.inl (cmp_oeq_eq_one e0)
    · exact Or.inr (cmp_oeq_eq_one e1)

end Cert.PreFacts

end
-- ==== Proof.RefRun.lean ====
/-
  The reference program's @main as the list of its 25 host operations — the three private functions
  it calls (the cumulative sum through its inner function, and the pad) listed inline at their call
  sites over the calls' buffer records — and its run read back: every weakly fair execution terminates
  with the result buffer at the operations' composed pure term `refTerm` of the four argument arrays,
  and the arguments unchanged.
-/
import proofs.«152919_j50697793962727_2_alg».proof.ReferenceIdeal
import proofs.«152919_j50697793962727_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations composed as one pure term of the four argument arrays, in the printed order:
    the masked integer durations, their running sum along the text axis (a windowed sum of width 512
    padded 511 on the low side), the indicator `frame < running sum` as a float, that indicator minus
    itself shifted by one along the text axis (zero-padded at text index 0) — the one-hot path —, and
    the masked input contracted with the path over the text axis, times the frame mask. -/
def refTerm (x : FVec F S16x192x512 .f32) (w : IVec S16x512 32) (xm : FVec F S16x512 .f32)
    (ym : FVec F S16x2048 .f32) : FVec F S16x192x2048 .f32 :=
  let v0 : FVec F S16x512 .f32 := sitofp .f32 w
  let v1 : FVec F S16x512 .f32 := mulf v0 xm
  let v2 : IVec S16x512 32 := fptosi 32 v1
  let z : IVec S_ 32 := constantI S_ 32 0#32
  let z0 : IVec S_ 32 := broadcastInDim S_ ![] bcast_S_S_ z
  let v3 : IVec S16x512 32 := Host.reduceWindow IntOp.addi ![1, 512] ![1, 1] ![0, 511] ![0, 0] v2 z0 reduceWindows_S16x512_S16x512_w1s1p0_0_w512s1p511_0 h_S_
  let v4 : IVec S2048 32 := iotaInDim S2048 32 0
  let v5 : IVec S1x2048x1 32 := broadcastInDim S1x2048x1 ![1] bcast_S2048_S1x2048x1_1 v4
  let v6 : IVec S16x1x512 32 := broadcastInDim S16x1x512 ![0, 2] bcast_S16x512_S16x1x512_0_2 v3
  let v7 : IVec S16x2048x512 32 := broadcastInDim S16x2048x512 ![0, 1, 2] bcast_S1x2048x1_S16x2048x512_0_1_2 v5
  let v8 : IVec S16x2048x512 32 := broadcastInDim S16x2048x512 ![0, 1, 2] bcast_S16x1x512_S16x2048x512_0_1_2 v6
  let v9 : IVec S16x2048x512 1 := cmpi .slt v7 v8
  let v10 : FVec F S16x2048x512 .f32 := uitofp .f32 v9
  let v11 : FVec F S16x2048x511 .f32 := extractStridedSlice S16x2048x511 ![0, 0, 0] v10 slices_S16x2048x512_S16x2048x511_0_0_0
  let c : IVec S_ 32 := constantI S_ 32 0#32
  let cf : FVec F S_ .f32 := sitofp .f32 c
  let v12 : FVec F S16x2048x512 .f32 := pad S16x2048x512 ![0, 0, 1] ![0, 0, 0] ![0, 0, 0] v11 cf pads_S16x2048x511_S16x2048x512_000_000_100 h_S_
  let v13 : FVec F S16x2048x512 .f32 := subf v10 v12
  let v14 : FVec F S16x1x512 .f32 := broadcastInDim S16x1x512 ![0, 2] bcast_S16x512_S16x1x512_0_2 xm
  let v15 : FVec F S16x192x512 .f32 := broadcastInDim S16x192x512 ![0, 1, 2] bcast_S16x1x512_S16x192x512_0_1_2 v14
  let v16 : FVec F S16x192x512 .f32 := mulf x v15
  let v17 : FVec F S16x192x2048 .f32 := Host.dotGeneral dot_S16x192x512_S16x2048x512_S16x192x2048_2_2_1_1_0_0 none v16 v13
  let v18 : FVec F S16x1x2048 .f32 := broadcastInDim S16x1x2048 ![0, 2] bcast_S16x2048_S16x1x2048_0_2 ym
  let v19 : FVec F S16x192x2048 .f32 := broadcastInDim S16x192x2048 ![0, 1, 2] bcast_S16x1x2048_S16x192x2048_0_1_2 v18
  mulf v17 v19

/-- @main's 25 operations in order, the calls unfolded: the cumulative sum is three (the scalar zero,
    its rank-0 broadcast, the windowed sum) into the inner call's buffers, the pad two (the scalar
    zero converted to a float, the pad) into its call's. -/
abbrev ops : List (HloOp τ sig (Elt F)) :=
  [ unary main_arg1 main_v0 (sitofp .f32 : (⟨S16x512, .i32⟩ : BufTy).Contents (Elt F) → (⟨S16x512, .f32⟩ : BufTy).Contents (Elt F)),
    binary main_v0 main_arg2 main_v1 (mulf : (⟨S16x512, .f32⟩ : BufTy).Contents (Elt F) → (⟨S16x512, .f32⟩ : BufTy).Contents (Elt F) → (⟨S16x512, .f32⟩ : BufTy).Contents (Elt F)),
    unary main_v1 main_v2 (fptosi 32 : (⟨S16x512, .f32⟩ : BufTy).Contents (Elt F) → (⟨S16x512, .i32⟩ : BufTy).Contents (Elt F)),
    TRef.nullary main_call0.call0.c (constantI S_ 32 0#32),
    TRef.unary main_call0.call0.c main_call0.call0.v0 (broadcastInDim S_ ![] bcast_S_S_),
    TRef.binary (.of main_v2 : TRef sig ⟨S16x512, .i32⟩) main_call0.call0.v0 main_call0.call0.v1 (fun x v => Host.reduceWindow IntOp.addi ![1, 512] ![1, 1] ![0, 511] ![0, 0] x v reduceWindows_S16x512_S16x512_w1s1p0_0_w512s1p511_0 h_S_),
    nullary main_v4 (iotaInDim S2048 32 0),
    unary main_v4 main_v5 (broadcastInDim S1x2048x1 ![1] bcast_S2048_S1x2048x1_1 : (⟨S2048, .i32⟩ : BufTy).Contents (Elt F) → (⟨S1x2048x1, .i32⟩ : BufTy).Contents (Elt F)),
    unary main_v3 main_v6 (broadcastInDim S16x1x512 ![0, 2] bcast_S16x512_S16x1x512_0_2 : (⟨S16x512, .i32⟩ : BufTy).Contents (Elt F) → (⟨S16x1x512, .i32⟩ : BufTy).Contents (Elt F)),
    unary main_v5 main_v7 (broadcastInDim S16x2048x512 ![0, 1, 2] bcast_S1x2048x1_S16x2048x512_0_1_2 : (⟨S1x2048x1, .i32⟩ : BufTy).Contents (Elt F) → (⟨S16x2048x512, .i32⟩ : BufTy).Contents (Elt F)),
    unary main_v6 main_v8 (broadcastInDim S16x2048x512 ![0, 1, 2] bcast_S16x1x512_S16x2048x512_0_1_2 : (⟨S16x1x512, .i32⟩ : BufTy).Contents (Elt F) → (⟨S16x2048x512, .i32⟩ : BufTy).Contents (Elt F)),
    binary main_v7 main_v8 main_v9 (cmpi .slt : (⟨S16x2048x512, .i32⟩ : BufTy).Contents (Elt F) → (⟨S16x2048x512, .i32⟩ : BufTy).Contents (Elt F) → (⟨S16x2048x512, .i1⟩ : BufTy).Contents (Elt F)),
    unary main_v9 main_v10 (uitofp .f32 : (⟨S16x2048x512, .i1⟩ : BufTy).Contents (Elt F) → (⟨S16x2048x512, .f32⟩ : BufTy).Contents (Elt F)),
    unary main_v10 main_v11 ((extractStridedSlice S16x2048x511 ![0, 0, 0] · slices_S16x2048x512_S16x2048x511_0_0_0) : (⟨S16x2048x512, .f32⟩ : BufTy).Contents (Elt F) → (⟨S16x2048x511, .f32⟩ : BufTy).Contents (Elt F)),
    nullary main_c (constantI S_ 32 0#32),
    TRef.unary (.of main_c : TRef sig ⟨S_, .i32⟩) main_call1.v0 (sitofp .f32),
    TRef.binary (.of main_v11 : TRef sig ⟨S16x2048x511, .f32⟩) main_call1.v0 main_call1.v1 (fun x v => pad S16x2048x512 ![0, 0, 1] ![0, 0, 0] ![0, 0, 0] x v pads_S16x2048x511_S16x2048x512_000_000_100 h_S_),
    binary main_v10 main_v12 main_v13 (subf : (⟨S16x2048x512, .f32⟩ : BufTy).Contents (Elt F) → (⟨S16x2048x512, .f32⟩ : BufTy).Contents (Elt F) → (⟨S16x2048x512, .f32⟩ : BufTy).Contents (Elt F)),
    unary main_arg2 main_v14 (broadcastInDim S16x1x512 ![0, 2] bcast_S16x512_S16x1x512_0_2 : (⟨S16x512, .f32⟩ : BufTy).Contents (Elt F) → (⟨S16x1x512, .f32⟩ : BufTy).Contents (Elt F)),
    unary main_v14 main_v15 (broadcastInDim S16x192x512 ![0, 1, 2] bcast_S16x1x512_S16x192x512_0_1_2 : (⟨S16x1x512, .f32⟩ : BufTy).Contents (Elt F) → (⟨S16x192x512, .f32⟩ : BufTy).Contents (Elt F)),
    binary main_arg0 main_v15 main_v16 (mulf : (⟨S16x192x512, .f32⟩ : BufTy).Contents (Elt F) → (⟨S16x192x512, .f32⟩ : BufTy).Contents (Elt F) → (⟨S16x192x512, .f32⟩ : BufTy).Contents (Elt F)),
    binary main_v16 main_v13 main_v17 ((fun l r => Host.dotGeneral dot_S16x192x512_S16x2048x512_S16x192x2048_2_2_1_1_0_0 none l r) : (⟨S16x192x512, .f32⟩ : BufTy).Contents (Elt F) → (⟨S16x2048x512, .f32⟩ : BufTy).Contents (Elt F) → (⟨S16x192x2048, .f32⟩ : BufTy).Contents (Elt F)),
    unary main_arg3 main_v18 (broadcastInDim S16x1x2048 ![0, 2] bcast_S16x2048_S16x1x2048_0_2 : (⟨S16x2048, .f32⟩ : BufTy).Contents (Elt F) → (⟨S16x1x2048, .f32⟩ : BufTy).Contents (Elt F)),
    unary main_v18 main_v19 (broadcastInDim S16x192x2048 ![0, 1, 2] bcast_S16x1x2048_S16x192x2048_0_1_2 : (⟨S16x1x2048, .f32⟩ : BufTy).Contents (Elt F) → (⟨S16x192x2048, .f32⟩ : BufTy).Contents (Elt F)),
    binary main_v17 main_v19 main_v20 (mulf : (⟨S16x192x2048, .f32⟩ : BufTy).Contents (Elt F) → (⟨S16x192x2048, .f32⟩ : BufTy).Contents (Elt F) → (⟨S16x192x2048, .f32⟩ : BufTy).Contents (Elt F)) ]

set_option maxRecDepth 1024 in
/-- @main is that straight line: the functions' definitions unfolded at their calls, both sides are one
    chain of steps once sequencing is reassociated. -/
theorem main_eq (c : Dev nD) : main (F := F) c = seq ops := by
  simp only [main, fn_cumsum.body, fn_cumsum_0.body, fn_pad.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub .., unary_bufs_sub .., unary_bufs_sub .., unary_bufs_sub .., binary_bufs_sub .., unary_bufs_sub .., unary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub ..⟩

/-- The fold of the operations at the result buffer is `refTerm` of the arguments' contents. -/
theorem out_eq (V : Valuation τ sig (Elt F)) :
    after ops V (main_v20 : DevRef τ sig)
      = refTerm (V (main_arg0 : DevRef τ sig)) (V (main_arg1 : DevRef τ sig)) (V (main_arg2 : DevRef τ sig))
          (V (main_arg3 : DevRef τ sig)) := by
  after_results_simp
  simp only [TRef.toBuf, TRef.ofBuf, cast_eq]
  rfl

theorem arg0_eq (V : Valuation τ sig (Elt F)) :
    after ops V (main_arg0 : DevRef τ sig) = V (main_arg0 : DevRef τ sig) := by after_results_simp
theorem arg1_eq (V : Valuation τ sig (Elt F)) :
    after ops V (main_arg1 : DevRef τ sig) = V (main_arg1 : DevRef τ sig) := by after_results_simp
theorem arg2_eq (V : Valuation τ sig (Elt F)) :
    after ops V (main_arg2 : DevRef τ sig) = V (main_arg2 : DevRef τ sig) := by after_results_simp
theorem arg3_eq (V : Valuation τ sig (Elt F)) :
    after ops V (main_arg3 : DevRef τ sig) = V (main_arg3 : DevRef τ sig) := by after_results_simp

/-- On every device, for any float values, from any memory with zero counters: every weakly fair execution of
    @main terminates with the result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = refTerm (m ((c.tc : Thread nD τ).loc main_arg0)) (m ((c.tc : Thread nD τ).loc main_arg1)) (m ((c.tc : Thread nD τ).loc main_arg2)) (m ((c.tc : Thread nD τ).loc main_arg3))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v20).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RefRead.lean ====
/-
  The reference's composed term read at an index: at batch row `b`, channel `c`, frame `j` it is the sum over text
  positions `k` of `(x b c k · mask b k) · path b j k`, times the frame mask at `(b, j)`, where `path` is the
  difference of the indicators `[j < cum b k] − [j < cum b (k − 1)]` (the subtrahend the padding value at `k = 0`).
  Every layout operation of the term (the broadcasts, the slice, the pad, the iota) reads one entry of its operand;
  the batched contraction is a finite sum of products of extended reals. No finiteness is used.
-/
import proofs.«152919_j50697793962727_2_alg».proof.ReferenceIdeal
import proofs.«152919_j50697793962727_2_alg».proof.Proof.Gen.ReferenceIdeal
import proofs.«152919_j50697793962727_2_alg».proof.Proof.RefRun
import proofs.«152919_j50697793962727_2_alg».proof.Proof.Spec
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.IdealHost

noncomputable section

namespace Cert.ReferenceIdeal.RefRead

open Cert.ReferenceIdeal Idealize.ShloMosaic Idealize.ShloMosaic.ValueIdx
open Cert.ReferenceIdeal.Facts₀
open scoped BigOperators

section Layout
variable {α : Type}

/-- A [B, N] array given a unit middle axis (dims [0, 2]) reads its own entry. -/
theorem bcast_mid_apply {B N : Nat} (h : (⟨2, ![B, N]⟩ : Shape).BroadcastsInDim ⟨3, ![B, 1, N]⟩ ![0, 2])
    (x : (⟨2, ![B, N]⟩ : Shape).Idx → α) (b : Fin B) (u : Fin 1) (n : Fin N) :
    broadcastInDim ⟨3, ![B, 1, N]⟩ ![0, 2] h x (ix3 b u n) = x (ix2 b n) :=
  broadcastInDim_apply _ h x _ (ix2 b n) fun a => match a with
    | ⟨0, _⟩ => by
      show b.val = if B = 1 then 0 else b.val
      split_ifs with h1
      · have := b.isLt; omega
      · rfl
    | ⟨1, _⟩ => by
      show n.val = if N = 1 then 0 else n.val
      split_ifs with h1
      · have := n.isLt; omega
      · rfl

/-- A [B, 1, N] array stretched along its unit axis to [B, M, N] (dims [0, 1, 2]) reads the entry at 0 there. -/
theorem bcast_stretch_mid_apply {B M N : Nat} (h : (⟨3, ![B, 1, N]⟩ : Shape).BroadcastsInDim ⟨3, ![B, M, N]⟩ ![0, 1, 2])
    (x : (⟨3, ![B, 1, N]⟩ : Shape).Idx → α) (b : Fin B) (m : Fin M) (n : Fin N) :
    broadcastInDim ⟨3, ![B, M, N]⟩ ![0, 1, 2] h x (ix3 b m n) = x (ix3 b (0 : Fin 1) n) :=
  broadcastInDim_apply _ h x _ (ix3 b (0 : Fin 1) n) fun a => match a with
    | ⟨0, _⟩ => by
      show b.val = if B = 1 then 0 else b.val
      split_ifs with h1
      · have := b.isLt; omega
      · rfl
    | ⟨1, _⟩ => rfl
    | ⟨2, _⟩ => by
      show n.val = if N = 1 then 0 else n.val
      split_ifs with h1
      · have := n.isLt; omega
      · rfl

/-- A [1, M, 1] array stretched along both unit axes to [B, M, N] reads its entry at the middle coordinate. -/
theorem bcast_stretch_outer_apply {B M N : Nat} (h : (⟨3, ![1, M, 1]⟩ : Shape).BroadcastsInDim ⟨3, ![B, M, N]⟩ ![0, 1, 2])
    (x : (⟨3, ![1, M, 1]⟩ : Shape).Idx → α) (b : Fin B) (m : Fin M) (n : Fin N) :
    broadcastInDim ⟨3, ![B, M, N]⟩ ![0, 1, 2] h x (ix3 b m n) = x (ix3 (0 : Fin 1) m (0 : Fin 1)) :=
  broadcastInDim_apply _ h x _ (ix3 (0 : Fin 1) m (0 : Fin 1)) fun a => match a with
    | ⟨0, _⟩ => rfl
    | ⟨1, _⟩ => by
      show m.val = if M = 1 then 0 else m.val
      split_ifs with h1
      · have := m.isLt; omega
      · rfl
    | ⟨2, _⟩ => rfl

/-- A vector [M] placed on the middle axis of [1, M, 1] (dims [1]) reads its own entry. -/
theorem bcast_vec_mid_apply {M : Nat} (h : (⟨1, ![M]⟩ : Shape).BroadcastsInDim ⟨3, ![1, M, 1]⟩ ![1])
    (x : (⟨1, ![M]⟩ : Shape).Idx → α) (u : Fin 1) (m : Fin M) (v : Fin 1) :
    broadcastInDim ⟨3, ![1, M, 1]⟩ ![1] h x (ix3 u m v) = x (ix1 m) :=
  broadcastInDim_apply _ h x _ (ix1 m) fun a => match a with
    | ⟨0, _⟩ => by
      show m.val = if M = 1 then 0 else m.val
      split_ifs with h1
      · have := m.isLt; omega
      · rfl

/-- The leading slice [B, M, N] of [B, M, N + 1] (offsets zero) reads the same coordinates. -/
theorem slice_last_apply {B M N : Nat} (h : (⟨3, ![B, M, N + 1]⟩ : Shape).Slices ![0, 0, 0] ⟨3, ![B, M, N]⟩)
    (x : (⟨3, ![B, M, N + 1]⟩ : Shape).Idx → α) (b : Fin B) (m : Fin M) (n : Fin N) :
    extractStridedSlice ⟨3, ![B, M, N]⟩ ![0, 0, 0] x h (ix3 b m n) = x (ix3 b m (⟨n.val, by omega⟩ : Fin (N + 1))) :=
  extractStridedSlice_apply _ x h _ _ fun a => match a with
    | ⟨0, _⟩ => by show b.val = 0 + b.val; omega
    | ⟨1, _⟩ => by show m.val = 0 + m.val; omega
    | ⟨2, _⟩ => by show n.val = 0 + n.val; omega

/-- A [B, M, N] array padded by one entry on the low side of the last axis, read past that entry, is the array one
    step back. -/
theorem pad_last_apply_succ {B M N : Nat} {u : Shape} (h : (⟨3, ![B, M, N]⟩ : Shape).Pads ![0, 0, 1] ![0, 0, 0] ![0, 0, 0] ⟨3, ![B, M, N + 1]⟩)
    (hu : 0 < u.numel) (x : (⟨3, ![B, M, N]⟩ : Shape).Idx → α) (v : u.Idx → α) (b : Fin B) (m : Fin M) (n : Fin N) :
    pad ⟨3, ![B, M, N + 1]⟩ ![0, 0, 1] ![0, 0, 0] ![0, 0, 0] x v h hu (ix3 b m (⟨n.val + 1, by omega⟩ : Fin (N + 1))) = x (ix3 b m n) :=
  pad_apply_of_inside _ _ _ x v h hu _ (ix3 b m n) fun a => match a with
    | ⟨0, _⟩ => by show b.val = 0 + b.val * (0 + 1); omega
    | ⟨1, _⟩ => by show m.val = 0 + m.val * (0 + 1); omega
    | ⟨2, _⟩ => by show n.val + 1 = 1 + n.val * (0 + 1); omega

/-- … and read at that entry is the padding value. -/
theorem pad_last_apply_zero {B M N : Nat} {u : Shape} (h : (⟨3, ![B, M, N]⟩ : Shape).Pads ![0, 0, 1] ![0, 0, 0] ![0, 0, 0] ⟨3, ![B, M, N + 1]⟩)
    (hu : 0 < u.numel) (x : (⟨3, ![B, M, N]⟩ : Shape).Idx → α) (v : u.Idx → α) (b : Fin B) (m : Fin M) :
    pad ⟨3, ![B, M, N + 1]⟩ ![0, 0, 1] ![0, 0, 0] ![0, 0, 0] x v h hu (ix3 b m (⟨0, by omega⟩ : Fin (N + 1))) = v (Shape.Idx.first hu) :=
  pad_apply_of_not_inside _ _ _ x v h hu _ (⟨2, by decide⟩ : Fin 3) (by
    show ¬(1 ≤ 0 ∧ _)
    omega)

end Layout

/-- The batched product [G, m, k] · [G, n, k] over the last axes (batch axes 0 and 0, contracting axes 2 and 2) read at
    an index is the sum over the contracted coordinate of the products of the entries. At the ideal values. -/
theorem dotGeneral_bt_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-! ## The reference's stages read at an index -/

/-- The indicator array `[frame < running sum]` as the program forms it: the frame numbers (an iota along the frame axis)
    and the running sums of the masked durations, both stretched to [16, 2048, 512], compared and read as a float. -/
def lt (w : IVec S16x512 32) (xm : FVec Ideal S16x512 .f32) : FVec Ideal S16x2048x512 .f32 :=
  uitofp .f32 (cmpi .slt
    (broadcastInDim S16x2048x512 ![0, 1, 2] bcast_S1x2048x1_S16x2048x512_0_1_2
      (broadcastInDim S1x2048x1 ![1] bcast_S2048_S1x2048x1_1 (iotaInDim S2048 32 0)))
    (broadcastInDim S16x2048x512 ![0, 1, 2] bcast_S16x1x512_S16x2048x512_0_1_2
      (broadcastInDim S16x1x512 ![0, 2] bcast_S16x512_S16x1x512_0_2
        (Cert.Dup.cumOf reduceWindows_S16x512_S16x512_w1s1p0_0_w512s1p511_0 (Cert.Dup.wmR w xm)))))

/-- The one-hot path as the program forms it: the indicator minus itself shifted one step along the text axis. -/
def pth (w : IVec S16x512 32) (xm : FVec Ideal S16x512 .f32) : FVec Ideal S16x2048x512 .f32 :=
  subf (lt w xm)
    (pad S16x2048x512 ![0, 0, 1] ![0, 0, 0] ![0, 0, 0]
      (extractStridedSlice S16x2048x511 ![0, 0, 0] (lt w xm) slices_S16x2048x512_S16x2048x511_0_0_0)
      (sitofp .f32 (constantI S_ 32 0#32) : FVec Ideal S_ .f32)
      pads_S16x2048x511_S16x2048x512_000_000_100 h_S_)

/-- The indicator at batch row `b`, frame `j`, text position `k`. -/
theorem lt_apply (w : IVec S16x512 32) (xm : FVec Ideal S16x512 .f32) (b : Fin 16) (j : Fin 2048) (k : Fin 512) :
    lt w xm (ix3 b j k) = Cert.Dup.ltR reduceWindows_S16x512_S16x512_w1s1p0_0_w512s1p511_0 w xm b j k := by
  show FloatOps.uitofp (F := Ideal) .f32 (IntOp.cmpi .slt
      (broadcastInDim S16x2048x512 ![0, 1, 2] bcast_S1x2048x1_S16x2048x512_0_1_2
        (broadcastInDim S1x2048x1 ![1] bcast_S2048_S1x2048x1_1 (iotaInDim S2048 32 0)) (ix3 b j k))
      (broadcastInDim S16x2048x512 ![0, 1, 2] bcast_S16x1x512_S16x2048x512_0_1_2
        (broadcastInDim S16x1x512 ![0, 2] bcast_S16x512_S16x1x512_0_2
          (Cert.Dup.cumOf reduceWindows_S16x512_S16x512_w1s1p0_0_w512s1p511_0 (Cert.Dup.wmR w xm))) (ix3 b j k))) = _
  rw [bcast_stretch_outer_apply, bcast_vec_mid_apply, bcast_stretch_mid_apply, bcast_mid_apply]
  rfl

/-- The path at batch row `b`, frame `j`, text position `k`. -/
theorem pth_apply (w : IVec S16x512 32) (xm : FVec Ideal S16x512 .f32) (b : Fin 16) (j : Fin 2048) (k : Fin 512) :
    pth w xm (ix3 b j k) = Cert.Dup.pathR reduceWindows_S16x512_S16x512_w1s1p0_0_w512s1p511_0 w xm b j k := by
  show lt w xm (ix3 b j k) - pad S16x2048x512 ![0, 0, 1] ![0, 0, 0] ![0, 0, 0]
      (extractStridedSlice S16x2048x511 ![0, 0, 0] (lt w xm) slices_S16x2048x512_S16x2048x511_0_0_0)
      (sitofp .f32 (constantI S_ 32 0#32) : FVec Ideal S_ .f32)
      pads_S16x2048x511_S16x2048x512_000_000_100 h_S_ (ix3 b j k) = _
  have key : pad S16x2048x512 ![0, 0, 1] ![0, 0, 0] ![0, 0, 0]
      (extractStridedSlice S16x2048x511 ![0, 0, 0] (lt w xm) slices_S16x2048x512_S16x2048x511_0_0_0)
      (sitofp .f32 (constantI S_ 32 0#32) : FVec Ideal S_ .f32)
      pads_S16x2048x511_S16x2048x512_000_000_100 h_S_ (ix3 b j k)
      = (if hk : k.val = 0 then FloatOps.sitofp (F := Ideal) .f32 (0#32 : BitVec 32)
         else Cert.Dup.ltR reduceWindows_S16x512_S16x512_w1s1p0_0_w512s1p511_0 w xm b j ⟨k.val - 1, by omega⟩) := by
    obtain ⟨kv, hkv⟩ := k
    cases kv with
    | zero =>
      rw [dif_pos rfl]
      exact pad_last_apply_zero (N := 511) pads_S16x2048x511_S16x2048x512_000_000_100 h_S_ _ _ b j
    | succ n =>
      rw [dif_neg (Nat.succ_ne_zero n)]
      refine (pad_last_apply_succ (N := 511) pads_S16x2048x511_S16x2048x512_000_000_100 h_S_ _ _ b j ⟨n, by omega⟩).trans ?_
      refine (slice_last_apply (N := 511) slices_S16x2048x512_S16x2048x511_0_0_0 _ b j ⟨n, by omega⟩).trans ?_
      exact lt_apply w xm b j ⟨n, by omega⟩
  exact congrArg₂ (fun p q : EReal => p - q) (lt_apply w xm b j k) key

/-- The program's composed term with the two stages named. -/
def T (x : FVec Ideal S16x192x512 .f32) (w : IVec S16x512 32) (xm : FVec Ideal S16x512 .f32)
    (ym : FVec Ideal S16x2048 .f32) : FVec Ideal S16x192x2048 .f32 :=
  mulf
    (Host.dotGeneral dot_S16x192x512_S16x2048x512_S16x192x2048_2_2_1_1_0_0 none
      (mulf x (broadcastInDim S16x192x512 ![0, 1, 2] bcast_S16x1x512_S16x192x512_0_1_2
        (broadcastInDim S16x1x512 ![0, 2] bcast_S16x512_S16x1x512_0_2 xm)))
      (pth w xm))
    (broadcastInDim S16x192x2048 ![0, 1, 2] bcast_S16x1x2048_S16x192x2048_0_1_2
      (broadcastInDim S16x1x2048 ![0, 2] bcast_S16x2048_S16x1x2048_0_2 ym))

/-- Read at every index the composed term is the specification's sum over text positions. -/
theorem T_eq (x : FVec Ideal S16x192x512 .f32) (w : IVec S16x512 32) (xm : FVec Ideal S16x512 .f32)
    (ym : FVec Ideal S16x2048 .f32) :
    T x w xm ym = Cert.Dup.G x xm ym (Cert.Dup.pathR reduceWindows_S16x512_S16x512_w1s1p0_0_w512s1p511_0 w xm) := by
  refine Cert.Dup.eq_G_of_apply _ x xm ym _ fun b c j => ?_
  show Host.dotGeneral dot_S16x192x512_S16x2048x512_S16x192x2048_2_2_1_1_0_0 none
      (mulf x (broadcastInDim S16x192x512 ![0, 1, 2] bcast_S16x1x512_S16x192x512_0_1_2
        (broadcastInDim S16x1x512 ![0, 2] bcast_S16x512_S16x1x512_0_2 xm)))
      (pth w xm) (ix3 b c j)
    * broadcastInDim S16x192x2048 ![0, 1, 2] bcast_S16x1x2048_S16x192x2048_0_1_2
      (broadcastInDim S16x1x2048 ![0, 2] bcast_S16x2048_S16x1x2048_0_2 ym) (ix3 b c j) = _
  rw [bcast_stretch_mid_apply, bcast_mid_apply]
  show (_ : EReal) * _ = (∑ k : Fin 512, ((x (ix3 b c k) : EReal) * (xm (ix2 b k) : EReal))
      * Cert.Dup.pathR reduceWindows_S16x512_S16x512_w1s1p0_0_w512s1p511_0 w xm b j k) * (ym (ix2 b j) : EReal)
  congr 1
  refine (dotGeneral_bt_apply dot_S16x192x512_S16x2048x512_S16x192x2048_2_2_1_1_0_0_wf none _ _ b c j).trans ?_
  refine Finset.sum_congr rfl fun k _ => ?_
  rw [pth_apply]
  congr 1
  show x (ix3 b c k) * broadcastInDim S16x192x512 ![0, 1, 2] bcast_S16x1x512_S16x192x512_0_1_2
        (broadcastInDim S16x1x512 ![0, 2] bcast_S16x512_S16x1x512_0_2 xm) (ix3 b c k) = _
  rw [bcast_stretch_mid_apply, bcast_mid_apply]

/-- The program's composed term is that term: the same operations in the same order, the prefix sums and the masked
    durations under their specification names (the rank-zero broadcast of the zero word is the constant zero). -/
theorem refTerm_T (x : FVec Ideal S16x192x512 .f32) (w : IVec S16x512 32) (xm : FVec Ideal S16x512 .f32)
    (ym : FVec Ideal S16x2048 .f32) : RefRun.refTerm (F := Ideal) x w xm ym = T x w xm ym := rfl

/-- The reference's result, as one function of the four argument arrays, is the specification at the path spelt as a
    difference of indicators. -/
theorem refTerm_eq (x : FVec Ideal S16x192x512 .f32) (w : IVec S16x512 32) (xm : FVec Ideal S16x512 .f32)
    (ym : FVec Ideal S16x2048 .f32) :
    RefRun.refTerm (F := Ideal) x w xm ym
      = Cert.Dup.G x xm ym (Cert.Dup.pathR reduceWindows_S16x512_S16x512_w1s1p0_0_w512s1p511_0 w xm) :=
  (refTerm_T x w xm ym).trans (T_eq x w xm ym)

end Cert.ReferenceIdeal.RefRead

end
-- ==== Proof.KerRun.lean ====
/-
  The kernel program's run with its result array NAMED: after every weakly fair execution the result buffer holds what the
  pipeline's proof data computes for output window 5 after all 32 grid points, and the four argument arrays are as launched.
  Nothing here looks at what the grid points compute.
-/
import proofs.«152919_j50697793962727_2_alg».proof.Proof.KernelIdealFrameP
import Idealize.ShloMosaic.Lib.Pipeline.Value

noncomputable section

namespace Cert.KernelIdeal.KerValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run the result buffer is output window 5's array after the last grid point. -/
theorem post5 (r : PUnit × MemSt nD τ sig (Elt F)) (h : Pipeline.FramePost cfgs (GenP.dats m) 0 (GenP.V m) r) (c : Dev nD) :
    r.2.mem ((c.tc : Thread nD τ).loc main_v11) = (GenP.dats m 0 c).arrAt 5 cfg0.N :=
  (h c).1 5

/-- The first argument is staged by input window 0 and never written back. -/
theorem kept_main_arg0 (r : PUnit × MemSt nD τ sig (Elt F)) (h : Pipeline.FramePost cfgs (GenP.dats m) 0 (GenP.V m) r) (c : Dev nD) :
    r.2.mem ((c.tc : Thread nD τ).loc main_arg0) = m ((c.tc : Thread nD τ).loc main_arg0) :=
  ((h c).1 0).trans (((GenP.dats m 0 c).arrAt_in 0 rfl _).trans ((GenP.A_eq m c 0).trans (GenP.V_main_arg0 m c)))

/-- The other three arguments are no window's array: the run leaves them as the region found them, which is as launched. -/
theorem kept_main_arg1 (r : PUnit × MemSt nD τ sig (Elt F)) (h : Pipeline.FramePost cfgs (GenP.dats m) 0 (GenP.V m) r) (c : Dev nD) :
    r.2.mem ((c.tc : Thread nD τ).loc main_arg1) = m ((c.tc : Thread nD τ).loc main_arg1) :=
  ((h c).2 main_arg1 (Pipeline.mem_restRefs_of main_arg1 (by decide) (by decide))).trans (GenP.V_main_arg1 m c)
theorem kept_main_arg2 (r : PUnit × MemSt nD τ sig (Elt F)) (h : Pipeline.FramePost cfgs (GenP.dats m) 0 (GenP.V m) r) (c : Dev nD) :
    r.2.mem ((c.tc : Thread nD τ).loc main_arg2) = m ((c.tc : Thread nD τ).loc main_arg2) :=
  ((h c).2 main_arg2 (Pipeline.mem_restRefs_of main_arg2 (by decide) (by decide))).trans (GenP.V_main_arg2 m c)
theorem kept_main_arg3 (r : PUnit × MemSt nD τ sig (Elt F)) (h : Pipeline.FramePost cfgs (GenP.dats m) 0 (GenP.V m) r) (c : Dev nD) :
    r.2.mem ((c.tc : Thread nD τ).loc main_arg3) = m ((c.tc : Thread nD τ).loc main_arg3) :=
  ((h c).2 main_arg3 (Pipeline.mem_restRefs_of main_arg3 (by decide) (by decide))).trans (GenP.V_main_arg3 m c)

/-- The frame run with the result array named, the arguments unchanged. -/
theorem run_named : θ_run defs (onTc (τ := τ) (main (F := F))) ⟨m, fun _ => 0, ρ⟩ fun r => ∀ c : Dev nD,
      r.2.mem ((c.tc : Thread nD τ).loc main_v11) = (GenP.dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨post5 m r h c, kept_main_arg0 m r h c, kept_main_arg1 m r h c,
      kept_main_arg2 m r h c, kept_main_arg3 m r h c⟩)
    (GenP.run_main m ρ)

end Cert.KernelIdeal.KerValue

end
-- ==== Proof.KerHost.lean ====
/-
  What the four arrays the host prepares for the pipeline hold when it starts, as terms of the argument arrays:
  the text mask and the frame mask each with a unit middle axis put in; the prefix sums of the clamped masked durations
  along the text axis, and those prefix sums minus the durations themselves (the prefix sums one position earlier),
  again with a unit middle axis. The prefix sum stays the window sum it is computed by: nothing here opens it.
-/
import proofs.«152919_j50697793962727_2_alg».proof.Proof.KernelIdealFrameP
import proofs.«152919_j50697793962727_2_alg».proof.Proof.Spec

noncomputable section

namespace Cert.KernelIdeal.KerValue

open Cert.KernelIdeal Cert.KernelIdeal.Gen Idealize.ShloMosaic Idealize.ShloMosaic.TcCoe Idealize.SL.Sem
open Idealize.ShloMosaic.Pipeline (Dat)

section AnyInstance

variable {F : FTy → Type} [FloatOps F]
variable (m : (ℓ : Loc nD τ sig) → Buf (Elt F) ℓ)

/-- The durations as the host forms them: read as floats, times the text mask, truncated back to words, clamped below at zero. -/
abbrev hostWm (w : IVec S16x512 32) (xm : FVec F S16x512 .f32) : IVec S16x512 32 :=
  maxsi (fptosi 32 (mulf (sitofp .f32 w : FVec F S16x512 .f32) xm))
    (broadcastInDim S16x512 ![] bcast_S_S16x512 (constantI S_ 32 0#32))

/-- Their prefix sums along the text axis, as the window sum the host computes. -/
abbrev hostCum (v : IVec S16x512 32) : IVec S16x512 32 :=
  Host.reduceWindow IntOp.addi ![1, 512] ![1, 1] ![0, 511] ![0, 0] v
    (broadcastInDim S_ ![] bcast_S_S_ (constantI S_ 32 0#32))
    reduceWindows_S16x512_S16x512_w1s1p0_0_w512s1p511_0 h_S_

/-- Window 1's array: the text mask, a unit middle axis put in. -/
theorem V_main_v7 (c : Dev nD) : (GenP.V m c main_v7 : FVec F S16x1x512 .f32)
    = broadcastInDim S16x1x512 ![0, 2] bcast_S16x512_S16x1x512_0_2
        (m ((c.tc : Thread nD τ).loc main_arg2) : FVec F S16x512 .f32) := by
  dsimp only [GenP.V]
  simp only [hostOps0, hostOps0_1, hostOps0_2, List.flatten_cons, List.flatten_nil, List.append_nil, List.cons_append,
    List.nil_append]
  after_results

/-- Window 4's array: the frame mask, a unit middle axis put in. -/
theorem V_main_v10 (c : Dev nD) : (GenP.V m c main_v10 : FVec F S16x1x2048 .f32)
    = broadcastInDim S16x1x2048 ![0, 2] bcast_S16x2048_S16x1x2048_0_2
        (m ((c.tc : Thread nD τ).loc main_arg3) : FVec F S16x2048 .f32) := by
  dsimp only [GenP.V]
  simp only [hostOps0, hostOps0_1, hostOps0_2, List.flatten_cons, List.flatten_nil, List.append_nil, List.cons_append,
    List.nil_append]
  after_results

/-- Window 2's array: the prefix sums of the clamped masked durations, a unit middle axis put in. -/
theorem V_main_v8 (c : Dev nD) : (GenP.V m c main_v8 : IVec S16x1x512 32)
    = broadcastInDim S16x1x512 ![0, 2] bcast_S16x512_S16x1x512_0_2
        (hostCum (hostWm (m ((c.tc : Thread nD τ).loc main_arg1)) (m ((c.tc : Thread nD τ).loc main_arg2) : FVec F S16x512 .f32))) := by
  dsimp only [GenP.V]
  simp only [hostOps0, hostOps0_1, hostOps0_2, List.flatten_cons, List.flatten_nil, List.append_nil, List.cons_append,
    List.nil_append]
  after_results
  simp only [StableHlo.TRef.toBuf, StableHlo.TRef.ofBuf, cast_eq]

/-- Window 3's array: those prefix sums minus the durations, a unit middle axis put in. -/
theorem V_main_v9 (c : Dev nD) : (GenP.V m c main_v9 : IVec S16x1x512 32)
    = broadcastInDim S16x1x512 ![0, 2] bcast_S16x512_S16x1x512_0_2
        (subi (hostCum (hostWm (m ((c.tc : Thread nD τ).loc main_arg1)) (m ((c.tc : Thread nD τ).loc main_arg2) : FVec F S16x512 .f32)))
          (hostWm (m ((c.tc : Thread nD τ).loc main_arg1)) (m ((c.tc : Thread nD τ).loc main_arg2) : FVec F S16x512 .f32))) := by
  dsimp only [GenP.V]
  simp only [hostOps0, hostOps0_1, hostOps0_2, List.flatten_cons, List.flatten_nil, List.append_nil, List.cons_append,
    List.nil_append]
  after_results
  simp only [StableHlo.TRef.toBuf, StableHlo.TRef.ofBuf, cast_eq]

end AnyInstance

/-! ## At the exact values: the specification's names for the same terms -/

/-- The host's clamped masked durations are the specification's. -/
theorem hostWm_eq (w : IVec S16x512 32) (xm : FVec Ideal S16x512 .f32) : hostWm w xm = Cert.Dup.wmK w xm := rfl

/-- The host's window sum from the broadcast zero is the specification's from the constant zero: the initial value is read
    at one index, where both are the zero word. -/
theorem hostCum_eq (v : IVec S16x512 32) :
    hostCum v = Cert.Dup.cumOf reduceWindows_S16x512_S16x512_w1s1p0_0_w512s1p511_0 v := rfl

end Cert.KernelIdeal.KerValue

end
-- ==== Proof.KerIdx.lean ====
/-
  Where the blocks lie. The grid has 32 points (b, f), b a batch row and f one of the two halves of the frame axis.
  At (b, f) windows 0 to 3 hold row b of their arrays whole, window 4 holds lanes 1024 f .. 1024 f + 1023 of row b of the
  frame mask, and the output block is channels 0 .. 191, frames 1024 f .. 1024 f + 1023 of row b. The index maps' values are
  decided once over the grid; each input block is then read at coordinates as an entry of the argument arrays.
-/
import proofs.«152919_j50697793962727_2_alg».proof.Proof.KerHost
import Idealize.ShloMosaic.Lib.ValueLayout

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx

/-- The batch row of grid point `t`. -/
def bOf (t : Fin cfg0.N) : Fin 16 := ⟨(grid0.coords t 0).val, (grid0.coords t 0).isLt⟩
/-- The half of the frame axis of grid point `t`. -/
def fOf (t : Fin cfg0.N) : Fin 2 := ⟨(grid0.coords t 1).val, (grid0.coords t 1).isLt⟩
/-- Frame `1024 f + l` of the frame axis: lane `l` of half `f`. -/
def jOf (t : Fin cfg0.N) (l : Fin 1024) : Fin 2048 := ⟨(fOf t).val * 1024 + l.val, by have := (fOf t).isLt; have := l.isLt; omega⟩

theorem bOf_val (t : Fin cfg0.N) : (bOf t).val = (grid0.coords t 0).val := rfl
theorem fOf_val (t : Fin cfg0.N) : (fOf t).val = (grid0.coords t 1).val := rfl

/-- The printed index maps at every grid point: block row `b` on the batch axis for every window, block 0 on the other
    axes, except block `f` on the frame axis for the frame mask and for the output. -/
theorem idx_facts : ∀ t : Fin cfg0.N,
    (win0_0.index t (0 : Fin 3) = (grid0.coords t 0).val ∧ win0_0.index t (1 : Fin 3) = 0 ∧ win0_0.index t (2 : Fin 3) = 0)
    ∧ (win0_1.index t (0 : Fin 3) = (grid0.coords t 0).val ∧ win0_1.index t (1 : Fin 3) = 0 ∧ win0_1.index t (2 : Fin 3) = 0)
    ∧ (win0_2.index t (0 : Fin 3) = (grid0.coords t 0).val ∧ win0_2.index t (1 : Fin 3) = 0 ∧ win0_2.index t (2 : Fin 3) = 0)
    ∧ (win0_3.index t (0 : Fin 3) = (grid0.coords t 0).val ∧ win0_3.index t (1 : Fin 3) = 0 ∧ win0_3.index t (2 : Fin 3) = 0)
    ∧ (win0_4.index t (0 : Fin 3) = (grid0.coords t 0).val ∧ win0_4.index t (1 : Fin 3) = 0 ∧ win0_4.index t (2 : Fin 3) = (grid0.coords t 1).val)
    ∧ (win0_5.index t (0 : Fin 3) = (grid0.coords t 0).val ∧ win0_5.index t (1 : Fin 3) = 0 ∧ win0_5.index t (2 : Fin 3) = (grid0.coords t 1).val) :=
  (by decide +kernel : ∀ t : Fin grid0.N, _)

/-- Every (row, half) is some grid point's. -/
theorem point_onto : ∀ (b : Fin 16) (f : Fin 2), ∃ t : Fin cfg0.N, (grid0.coords t 0).val = b.val ∧ (grid0.coords t 1).val = f.val :=
  (by decide +kernel : ∀ (b : Fin 16) (f : Fin 2), ∃ t : Fin grid0.N, (grid0.coords t 0).val = b.val ∧ (grid0.coords t 1).val = f.val)

section AnyInstance

variable {F : FTy → Type} [FloatOps F]
variable (m : (ℓ : Loc nD τ sig) → Buf (Elt F) ℓ)

/-- Window 0's block at `t` is row `b` of the first argument. -/
theorem iblk0_apply (c : Dev nD) (t : Fin cfg0.N) (cc : Fin 192) (k : Fin 512) :
    (GenP.iblk m c 0 t : Vec F S1x192x512 .f32) (ix3 (0 : Fin 1) cc k)
      = (m ((c.tc : Thread nD τ).loc main_arg0) : FVec F S16x192x512 .f32) (ix3 (bOf t) cc k) := by
  obtain ⟨⟨e0, e1, e2⟩, -⟩ := idx_facts t
  unfold GenP.iblk
  rw [View.read_apply]
  show GenP.V m c main_arg0 (((cfg0.win 0).blk t).view.emb (ix3 (0 : Fin 1) cc k)) = _
  rw [GenP.V_main_arg0]
  refine congrArg (m ((c.tc : Thread nD τ).loc main_arg0)) (funext fun a => Fin.ext ?_)
  match a with
  | ⟨0, _⟩ => show win0_0.index t (0 : Fin 3) * 1 + 1 * 0 = (grid0.coords t 0).val; omega
  | ⟨1, _⟩ => show win0_0.index t (1 : Fin 3) * 192 + 1 * cc.val = cc.val; omega
  | ⟨2, _⟩ => show win0_0.index t (2 : Fin 3) * 512 + 1 * k.val = k.val; omega

/-- Window 1's block at `t` is row `b` of the text mask. -/
theorem iblk1_apply (c : Dev nD) (t : Fin cfg0.N) (k : Fin 512) :
    (GenP.iblk m c 1 t : Vec F S1x1x512 .f32) (ix3 (0 : Fin 1) (0 : Fin 1) k)
      = (m ((c.tc : Thread nD τ).loc main_arg2) : FVec F S16x512 .f32) (ix2 (bOf t) k) := by
  obtain ⟨-, ⟨e0, e1, e2⟩, -⟩ := idx_facts t
  unfold GenP.iblk
  rw [View.read_apply]
  show GenP.V m c main_v7 (((cfg0.win 1).blk t).view.emb (ix3 (0 : Fin 1) (0 : Fin 1) k)) = _
  rw [V_main_v7]
  refine broadcastInDim_apply _ _ _ _ (ix2 (bOf t) k) fun a => ?_
  match a with
  | ⟨0, _⟩ =>
    refine Eq.trans ?_ (if_neg (by decide +revert)).symm
    show (grid0.coords t 0).val = win0_1.index t (0 : Fin 3) * 1 + 1 * 0
    omega
  | ⟨1, _⟩ =>
    refine Eq.trans ?_ (if_neg (by decide +revert)).symm
    show k.val = win0_1.index t (2 : Fin 3) * 512 + 1 * k.val
    omega

/-- Window 2's block at `t` is row `b` of the prefix sums. -/
theorem iblk2_apply (c : Dev nD) (t : Fin cfg0.N) (k : Fin 512) :
    (GenP.iblk m c 2 t : Vec F S1x1x512 .i32) (ix3 (0 : Fin 1) (0 : Fin 1) k)
      = hostCum (hostWm (m ((c.tc : Thread nD τ).loc main_arg1)) (m ((c.tc : Thread nD τ).loc main_arg2) : FVec F S16x512 .f32)) (ix2 (bOf t) k) := by
  obtain ⟨-, -, ⟨e0, e1, e2⟩, -⟩ := idx_facts t
  unfold GenP.iblk
  rw [View.read_apply]
  show GenP.V m c main_v8 (((cfg0.win 2).blk t).view.emb (ix3 (0 : Fin 1) (0 : Fin 1) k)) = _
  rw [V_main_v8]
  refine broadcastInDim_apply _ _ _ _ (ix2 (bOf t) k) fun a => ?_
  match a with
  | ⟨0, _⟩ =>
    refine Eq.trans ?_ (if_neg (by decide +revert)).symm
    show (grid0.coords t 0).val = win0_2.index t (0 : Fin 3) * 1 + 1 * 0
    omega
  | ⟨1, _⟩ =>
    refine Eq.trans ?_ (if_neg (by decide +revert)).symm
    show k.val = win0_2.index t (2 : Fin 3) * 512 + 1 * k.val
    omega

/-- Window 3's block at `t` is row `b` of the prefix sums less the durations. -/
theorem iblk3_apply (c : Dev nD) (t : Fin cfg0.N) (k : Fin 512) :
    (GenP.iblk m c 3 t : Vec F S1x1x512 .i32) (ix3 (0 : Fin 1) (0 : Fin 1) k)
      = subi (hostCum (hostWm (m ((c.tc : Thread nD τ).loc main_arg1)) (m ((c.tc : Thread nD τ).loc main_arg2) : FVec F S16x512 .f32)))
          (hostWm (m ((c.tc : Thread nD τ).loc main_arg1)) (m ((c.tc : Thread nD τ).loc main_arg2) : FVec F S16x512 .f32)) (ix2 (bOf t) k) := by
  obtain ⟨-, -, -, ⟨e0, e1, e2⟩, -⟩ := idx_facts t
  unfold GenP.iblk
  rw [View.read_apply]
  show GenP.V m c main_v9 (((cfg0.win 3).blk t).view.emb (ix3 (0 : Fin 1) (0 : Fin 1) k)) = _
  rw [V_main_v9]
  refine broadcastInDim_apply _ _ _ _ (ix2 (bOf t) k) fun a => ?_
  match a with
  | ⟨0, _⟩ =>
    refine Eq.trans ?_ (if_neg (by decide +revert)).symm
    show (grid0.coords t 0).val = win0_3.index t (0 : Fin 3) * 1 + 1 * 0
    omega
  | ⟨1, _⟩ =>
    refine Eq.trans ?_ (if_neg (by decide +revert)).symm
    show k.val = win0_3.index t (2 : Fin 3) * 512 + 1 * k.val
    omega

/-- Window 4's block at `t` is lanes `1024 f ..` of row `b` of the frame mask. -/
theorem iblk4_apply (c : Dev nD) (t : Fin cfg0.N) (l : Fin 1024) :
    (GenP.iblk m c 4 t : Vec F S1x1x1024 .f32) (ix3 (0 : Fin 1) (0 : Fin 1) l)
      = (m ((c.tc : Thread nD τ).loc main_arg3) : FVec F S16x2048 .f32) (ix2 (bOf t) (jOf t l)) := by
  obtain ⟨-, -, -, -, ⟨e0, e1, e2⟩, -⟩ := idx_facts t
  unfold GenP.iblk
  rw [View.read_apply]
  show GenP.V m c main_v10 (((cfg0.win 4).blk t).view.emb (ix3 (0 : Fin 1) (0 : Fin 1) l)) = _
  rw [V_main_v10]
  refine broadcastInDim_apply _ _ _ _ (ix2 (bOf t) (jOf t l)) fun a => ?_
  match a with
  | ⟨0, _⟩ =>
    refine Eq.trans ?_ (if_neg (by decide +revert)).symm
    show (grid0.coords t 0).val = win0_4.index t (0 : Fin 3) * 1 + 1 * 0
    omega
  | ⟨1, _⟩ =>
    refine Eq.trans ?_ (if_neg (by decide +revert)).symm
    show (grid0.coords t 1).val * 1024 + l.val = win0_4.index t (2 : Fin 3) * 1024 + 1 * l.val
    omega

end AnyInstance

/-- The output block's entry `(u, cc, l)` at `t` lies in the result array at `(b, cc, 1024 f + l)`. -/
theorem emb5 (t : Fin cfg0.N) (u : Fin 1) (cc : Fin 192) (l : Fin 1024) :
    (((cfg0.win 5).blk t).view.emb (ix3 u cc l) : S16x192x2048.Idx) = ix3 (bOf t) cc (jOf t l) := by
  obtain ⟨-, -, -, -, -, ⟨e0, e1, e2⟩⟩ := idx_facts t
  funext a
  apply Fin.ext
  have hu : u.val = 0 := by omega
  match a with
  | ⟨0, _⟩ => show win0_5.index t (0 : Fin 3) * 1 + 1 * u.val = (grid0.coords t 0).val; omega
  | ⟨1, _⟩ => show win0_5.index t (1 : Fin 3) * 192 + 1 * cc.val = cc.val; omega
  | ⟨2, _⟩ => show win0_5.index t (2 : Fin 3) * 1024 + 1 * l.val = (grid0.coords t 1).val * 1024 + l.val; omega

end Cert.KernelIdeal.KerValue

end
-- ==== Proof.KerLayout.lean ====
/-
  Layout operations read at an index given by coordinates, for the three forms a column of per-position words needs:
  a [1, 1, a] block read as a vector, a vector read as a column [a, 1], and a column spread over b lanes [a, b];
  and a matrix product of an [m, k] by a [k, n] operand into a zero accumulator, at the exact values, read at (a, b)
  as the sum over the contracted coordinate.
-/
import Idealize.ShloMosaic.Lib.ValueLayout
import Idealize.ShloMosaic.PureOps.Ideal.Laws

open scoped BigOperators

namespace Cert.KernelIdeal.KerValue

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of an `[m, k]` by a `[k, n]` matrix on the matrix unit (contracting the first operand's columns with the
    second's rows, whatever proof of well-formedness the record carries), accumulated into the zero splat, at the exact
    values: entry `(a, b)` is the sum over `c` of the products of the entries `(a, c)` and `(c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.KernelIdeal.KerValue
-- ==== Proof.KerPay.lean ====
/-
  What one grid point computes, entry by entry. The body forms three matrices from its blocks: the masked input
  (channel c, position k) ↦ x(c, k) · xmask(k); the selection matrix (position k, lane l) ↦ 1 when the frame number of
  lane l — the lane plus 1024 times the half of the frame axis the point works on — lies in [cumprev(k), cum(k)) as signed
  words, else 0; and the frame mask spread over the channels. Its result is (masked input × selection) · frame mask, so
  entry (c, l) is  (Σ_k x(c, k) · xmask(k) · sel(k, l)) · ymask(l).  At the exact values the two roundings to the shorter
  format are the identity and the matrix product is the plain sum.
-/
import proofs.«152919_j50697793962727_2_alg».proof.Proof.Gen.KernelIdeal.Skeleton
import proofs.«152919_j50697793962727_2_alg».proof.Proof.KerLayout

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx
open scoped BigOperators

/-- The frame number of lane `l` in half `f` of the frame axis, as the body forms the word. -/
def laneWord (f : Nat) (l : Fin 1024) : BitVec 32 :=
  IntOp.addi (BitVec.ofNat 32 l.val) (Scalar.muli (BitVec.ofNat 32 f) 1024#32)

/-- The frame numbers of the block's lanes, the same in every row. -/
def frameMat (f : Nat) : IVec S512x1024 32 :=
  addi (iota .tc S512x1024 32 [1] iota_S512x1024_d1_w32) (broadcast S512x1024 (Scalar.muli (BitVec.ofNat 32 f) 1024#32))

/-- A block of per-position words as a column, spread over the lanes. -/
def colOf (v : Vec Ideal S1x1x512 .i32) : IVec S512x1024 32 :=
  broadcastTo S512x1024 (shapeCast S512x1 (shapeCast S512 v shapeCasts_S1x1x512_S512) shapeCasts_S512_S512x1)
    broadcasts_S512x1_S512x1024

/-- The selection matrix: 1 where the lane's frame number is at least the second block's word and below the first's. -/
def selMat (f : Nat) (v4 v7 : Vec Ideal S1x1x512 .i32) : FVec Ideal S512x1024 .bf16 :=
  truncf .bf16 (select (andi (cmpi .sge (frameMat f) (colOf v7)) (cmpi .slt (frameMat f) (colOf v4)))
      (broadcast S512x1024 (Scalar.ofBits .f32 0x3F800000#32 : Ideal .f32))
      (broadcast S512x1024 (Scalar.ofBits .f32 0x00000000#32 : Ideal .f32))) bitsLt_bf16_f32

/-- The masked input block. -/
def lhsMat (v19 : Vec Ideal S1x192x512 .f32) (v21 : Vec Ideal S1x1x512 .f32) : FVec Ideal S192x512 .bf16 :=
  truncf .bf16 (mulf (shapeCast S192x512 v19 shapeCasts_S1x192x512_S192x512)
      (broadcastTo S192x512 (shapeCast S1x512 (shapeCast S512 v21 shapeCasts_S1x1x512_S512) shapeCasts_S512_S1x512)
        broadcasts_S1x512_S192x512)) bitsLt_bf16_f32

/-- The frame mask's block spread over the channels. -/
def ymMat (v28 : Vec Ideal S1x1x1024 .f32) : FVec Ideal S192x1024 .f32 :=
  broadcastTo S192x1024 (shapeCast S1x1024 (shapeCast S1024 v28 shapeCasts_S1x1x1024_S1024) shapeCasts_S1024_S1x1024)
    broadcasts_S1x1024_S192x1024

/-- The body's value is the product of the masked input and the selection matrix, times the frame mask. -/
theorem pay_eq (i : grid0.Coords) (v4 v7 : Vec Ideal S1x1x512 .i32) (v19 : Vec Ideal S1x192x512 .f32)
    (v21 : Vec Ideal S1x1x512 .f32) (v28 : Vec Ideal S1x1x1024 .f32) :
    k0_pay1 i v4 v7 v19 v21 v28
      = shapeCast S1x192x1024 (mulf (matmul dot_S192x512_S512x1024_S192x1024_1_0_0_1_n_n none (lhsMat v19 v21) (selMat (i 1).val v4 v7)
          (constant S192x1024 .f32 0x00000000#32)) (ymMat v28)) shapeCasts_S192x1024_S1x192x1024 := rfl

theorem frameMat_apply (f : Nat) (k : Fin 512) (l : Fin 1024) : frameMat f (ix2 k l) = laneWord f l :=
  congrArg (fun z => IntOp.addi z (Scalar.muli (BitVec.ofNat 32 f) 1024#32))
    (iota_single_apply .tc S512x1024 32 1 iota_S512x1024_d1_w32 (ix2 k l))

theorem colOf_apply (v : Vec Ideal S1x1x512 .i32) (k : Fin 512) (l : Fin 1024) :
    colOf v (ix2 k l) = v (ix3 (0 : Fin 1) (0 : Fin 1) k) := by
  unfold colOf
  exact (broadcastTo_a1_ab_apply _ _ k l).trans ((shapeCast_a_a1_apply _ _ k 0).trans (shapeCast_11a_a_apply v _ k))

theorem selMat_apply (f : Nat) (v4 v7 : Vec Ideal S1x1x512 .i32) (k : Fin 512) (l : Fin 1024) :
    selMat f v4 v7 (ix2 k l)
      = Scalar.select (IntOp.andi (IntOp.cmpi .sge (laneWord f l) (v7 (ix3 (0 : Fin 1) (0 : Fin 1) k)))
            (IntOp.cmpi .slt (laneWord f l) (v4 (ix3 (0 : Fin 1) (0 : Fin 1) k))))
          (Ideal.ofBits .f32 0x3F800000#32) (Ideal.ofBits .f32 0x00000000#32) := by
  show Scalar.select (IntOp.andi (IntOp.cmpi .sge (frameMat f (ix2 k l)) (colOf v7 (ix2 k l)))
      (IntOp.cmpi .slt (frameMat f (ix2 k l)) (colOf v4 (ix2 k l)))) _ _ = _
  rw [frameMat_apply, colOf_apply, colOf_apply]
  rfl

theorem lhsMat_apply (v19 : Vec Ideal S1x192x512 .f32) (v21 : Vec Ideal S1x1x512 .f32) (cc : Fin 192) (k : Fin 512) :
    lhsMat v19 v21 (ix2 cc k) = v19 (ix3 (0 : Fin 1) cc k) * v21 (ix3 (0 : Fin 1) (0 : Fin 1) k) := by
  unfold lhsMat
  exact congrArg₂ (· * ·) (shapeCast_1ab_ab_apply v19 _ cc k)
    ((broadcastTo_1b_ab_apply _ _ cc k).trans ((shapeCast_a_1a_apply _ _ 0 k).trans (shapeCast_11a_a_apply v21 _ k)))

theorem ymMat_apply (v28 : Vec Ideal S1x1x1024 .f32) (cc : Fin 192) (l : Fin 1024) :
    ymMat v28 (ix2 cc l) = v28 (ix3 (0 : Fin 1) (0 : Fin 1) l) := by
  unfold ymMat
  exact (broadcastTo_1b_ab_apply _ _ cc l).trans ((shapeCast_a_1a_apply _ _ 0 l).trans (shapeCast_11a_a_apply v28 _ l))

/-- THE BODY'S VALUE AT AN ENTRY `(u, c, l)` of the output block. -/
theorem pay_apply (i : grid0.Coords) (v4 v7 : Vec Ideal S1x1x512 .i32) (v19 : Vec Ideal S1x192x512 .f32)
    (v21 : Vec Ideal S1x1x512 .f32) (v28 : Vec Ideal S1x1x1024 .f32) (u : Fin 1) (cc : Fin 192) (l : Fin 1024) :
    k0_pay1 i v4 v7 v19 v21 v28 (ix3 u cc l)
      = (∑ k : Fin 512, (v19 (ix3 (0 : Fin 1) cc k) * v21 (ix3 (0 : Fin 1) (0 : Fin 1) k))
            * Scalar.select (IntOp.andi (IntOp.cmpi .sge (laneWord (i 1).val l) (v7 (ix3 (0 : Fin 1) (0 : Fin 1) k)))
                (IntOp.cmpi .slt (laneWord (i 1).val l) (v4 (ix3 (0 : Fin 1) (0 : Fin 1) k))))
              (Ideal.ofBits .f32 0x3F800000#32) (Ideal.ofBits .f32 0x00000000#32))
          * v28 (ix3 (0 : Fin 1) (0 : Fin 1) l) := by
  rw [pay_eq]
  refine (shapeCast_ab_1ab_apply _ _ u cc l).trans ?_
  show matmul dot_S192x512_S512x1024_S192x1024_1_0_0_1_n_n none (lhsMat v19 v21) (selMat (i 1).val v4 v7) (constant S192x1024 .f32 0x00000000#32) (ix2 cc l)
      * ymMat v28 (ix2 cc l) = _
  rw [ymMat_apply]
  refine congrArg (· * v28 (ix3 (0 : Fin 1) (0 : Fin 1) l)) ?_
  refine (matmul_plain_zero_apply _ none (lhsMat v19 v21) (selMat (i 1).val v4 v7) cc l).trans ?_
  refine Finset.sum_congr rfl fun k _ => ?_
  rw [lhsMat_apply, selMat_apply]

end Cert.KernelIdeal.KerValue

end
-- ==== Proof.KerFinal.lean ====
/-
  From blocks to the array. Grid point (b, f) writes back the block of channels 0 .. 191, frames 1024 f .. 1024 f + 1023 of batch row b;
  its entry (c, l) is the body's value there, which — the input blocks read as rows of the argument arrays, the two
  integer blocks as the prefix sums of the clamped masked durations and those sums less the durations, the lane's frame
  number 1024 f + l — is the specification's value at (b, c, 1024 f + l). The 32 blocks tile the result array, so the array
  ends holding the specification's result; the run is the frame run re-posted with that.
-/
import proofs.«152919_j50697793962727_2_alg».proof.Proof.KerRun
import proofs.«152919_j50697793962727_2_alg».proof.Proof.KerIdx
import proofs.«152919_j50697793962727_2_alg».proof.Proof.KerPay

noncomputable section

namespace Cert.KernelIdeal.KerValue

open Cert.KernelIdeal Cert.KernelIdeal.Gen Idealize.ShloMosaic Idealize.ShloMosaic.TcCoe Idealize.SL.Sem
open Idealize.ShloMosaic.Pipeline (Dat)

open Idealize.ShloMosaic.ValueIdx
open scoped BigOperators

variable (m : (ℓ : Loc nD τ sig) → Buf (Elt Ideal) ℓ) (ρ : Dev nD → PrngReg)

/-- The specification's result at core `c`'s argument arrays, with the interval indicator spelt by two comparisons. -/
abbrev Gk (c : Dev nD) : FVec Ideal Cert.Dup.SO .f32 :=
  Cert.Dup.G (m ((c.tc : Thread nD τ).loc main_arg0)) (m ((c.tc : Thread nD τ).loc main_arg2)) (m ((c.tc : Thread nD τ).loc main_arg3))
        (Cert.Dup.pathK reduceWindows_S16x512_S16x512_w1s1p0_0_w512s1p511_0 (m ((c.tc : Thread nD τ).loc main_arg1)) (m ((c.tc : Thread nD τ).loc main_arg2)))

theorem hz3 : (![0, 0, 0] : Fin 3 → Nat) = fun _ => 0 := funext fun a => by fin_cases a <;> rfl

/-- The frame number `1024 f + l` as a word is the word the body forms for lane `l` at half `f`. -/
theorem frameWord_jOf (t : Fin cfg0.N) (l : Fin 1024) :
    Cert.Dup.frameWord (jOf t l) = laneWord (grid0.coords t 1).val l := by
  have hf : (fOf t).val < 2 := (fOf t).isLt
  have hl : l.val < 1024 := l.isLt
  have h1 : (jOf t l).val % 1024 = l.val := by
    show ((fOf t).val * 1024 + l.val) % 1024 = l.val
    omega
  have h2 : (jOf t l).val / 1024 = (grid0.coords t 1).val := by
    show ((fOf t).val * 1024 + l.val) / 1024 = (fOf t).val
    omega
  unfold Cert.Dup.frameWord laneWord
  rw [h1, h2]

/-- The body's value at entry `(u, cc, l)` of grid point `t`'s block is the specification's at `(b, cc, 1024 f + l)`. -/
theorem point_eq (c : Dev nD) (t : Fin cfg0.N) (u : Fin 1) (cc : Fin 192) (l : Fin 1024) :
    k0_pay1 (grid0.coords t) (GenP.iblk m c 2 t) (GenP.iblk m c 3 t) (GenP.iblk m c 0 t) (GenP.iblk m c 1 t)
        (GenP.iblk m c 4 t) (ix3 u cc l)
      = Gk m c (ix3 (bOf t) cc (jOf t l)) := by
  refine (pay_apply (grid0.coords t) (GenP.iblk m c 2 t) (GenP.iblk m c 3 t) (GenP.iblk m c 0 t) (GenP.iblk m c 1 t)
    (GenP.iblk m c 4 t) u cc l).trans ?_
  rw [iblk4_apply m c t l]
  show _ = Cert.Dup.Gat _ _ _ _ (bOf t) cc (jOf t l)
  unfold Cert.Dup.Gat
  refine congrArg (· * _) (Finset.sum_congr rfl fun k _ => ?_)
  rw [iblk0_apply m c t cc k, iblk1_apply m c t k, iblk2_apply m c t k, iblk3_apply m c t k, hostWm_eq, hostCum_eq,
    ← frameWord_jOf]
  rfl

/-- The same at any index of the block, the array index written by the block's own map. -/
theorem point_eq' (c : Dev nD) (t : Fin cfg0.N) (y : S1x192x1024.Idx) :
    k0_pay1 (grid0.coords t) (GenP.iblk m c 2 t) (GenP.iblk m c 3 t) (GenP.iblk m c 0 t) (GenP.iblk m c 1 t)
        (GenP.iblk m c 4 t) y
      = Gk m c (((cfg0.win 5).blk t).view.emb y) := by
  obtain ⟨u, cc, l, rfl⟩ : ∃ (u : Fin 1) (cc : Fin 192) (l : Fin 1024), y = ix3 u cc l := ⟨y 0, y 1, y 2, eq_ix3 y⟩
  rw [emb5 t u cc l]
  exact point_eq m c t u cc l

/-- WHAT GRID POINT `t` WRITES BACK is block `t` of the specification's result. -/
theorem flushed_eq (c : Dev nD) (t : Fin cfg0.N) :
    (GenP.dats m 0 c).flushed 5 t = ((cfg0.win 5).blk t).view.read (Elt Ideal) (Gk m c) := by
  show (cfg0.win 5).cut (grid0.coords t) ((GenP.dats m 0 c).after 5 t) = _
  rw [GenP.after0_5]
  unfold GenP.out0_5
  rw [View.canon_unit_zero hz3]
  simp only [View.ld_unit_zero (S := S1x1x512) hz3, View.ld_unit_zero (S := S1x192x512) hz3,
    View.ld_unit_zero (S := S1x1x1024) hz3]
  funext y
  show k0_pay1 (grid0.coords t) (GenP.iblk m c 2 t) (GenP.iblk m c 3 t) (GenP.iblk m c 0 t) (GenP.iblk m c 1 t)
      (GenP.iblk m c 4 t) y = Gk m c (((cfg0.win 5).blk t).view.emb y)
  exact point_eq' m c t y

/-- An index of the result array is in grid point `t`'s block iff each coordinate is in the block's range on its axis. -/
theorem mem_blk5 (t : Fin cfg0.N) (i : S16x192x2048.Idx) :
    i ∈ ((cfg0.win 5).blk t).view.set ↔ ∀ a : Fin 3, win0_5.index t a * S1x192x1024.size a ≤ (i a).val
      ∧ (i a).val < win0_5.index t a * S1x192x1024.size a + S1x192x1024.size a := by
  show i ∈ ((View.whole main_v11).slice (win0_5.rect t)).set ↔ _
  rw [View.set_slice_whole, Rect.mem_set_unit]
  exact Iff.rfl

/-- Every index `(b, c, j)` of the result array is in the block of the grid point `(b, j / 1024)`. -/
theorem cover5 (i : S16x192x2048.Idx) :
    ∃ t : Fin cfg0.N, (cfg0.win 5).flush t = true ∧ i ∈ ((cfg0.win 5).blk t).view.set := by
  have hi0 : (i 0).val < 16 := (i 0).isLt
  have hi1 : (i 1).val < 192 := (i 1).isLt
  have hi2 : (i 2).val < 2048 := (i 2).isLt
  obtain ⟨t, ht0, ht1⟩ := point_onto ⟨(i 0).val, hi0⟩ ⟨(i 2).val / 1024, by omega⟩
  have ht0' : (grid0.coords t 0).val = (i 0).val := ht0
  have ht1' : (grid0.coords t 1).val = (i 2).val / 1024 := ht1
  obtain ⟨-, -, -, -, -, ⟨e0, e1, e2⟩⟩ := idx_facts t
  refine ⟨t, flush0_5 t, ?_⟩
  rw [mem_blk5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 192 ≤ (i 1).val ∧ (i 1).val < win0_5.index t (1 : Fin 3) * 192 + 192
    omega
  | ⟨2, _⟩ =>
    show win0_5.index t (2 : Fin 3) * 1024 ≤ (i 2).val ∧ (i 2).val < win0_5.index t (2 : Fin 3) * 1024 + 1024
    omega

/-- THE RESULT ARRAY after the run is the specification's result of the argument arrays. -/
theorem final (c : Dev nD) : (GenP.dats m 0 c).arrAt 5 cfg0.N
    = Cert.Dup.G (m ((c.tc : Thread nD τ).loc main_arg0)) (m ((c.tc : Thread nD τ).loc main_arg2)) (m ((c.tc : Thread nD τ).loc main_arg3))
        (Cert.Dup.pathK reduceWindows_S16x512_S16x512_w1s1p0_0_w512s1p511_0 (m ((c.tc : Thread nD τ).loc main_arg1)) (m ((c.tc : Thread nD τ).loc main_arg2))) :=
  (GenP.dats m 0 c).arrAt_eq_of_cover 5 (Gk m c) (fun t _ => flushed_eq m c t) cover5

/-- THE RUN, READ: the result buffer at the specification's result, the arguments unchanged. -/
theorem run : θ_run defs (onTc (τ := τ) (main (F := Ideal))) ⟨m, fun _ => 0, ρ⟩ fun r => ∀ c : Dev nD,
      r.2.mem ((c.tc : Thread nD τ).loc main_v11) = Cert.Dup.G (m ((c.tc : Thread nD τ).loc main_arg0)) (m ((c.tc : Thread nD τ).loc main_arg2)) (m ((c.tc : Thread nD τ).loc main_arg3))
        (Cert.Dup.pathK reduceWindows_S16x512_S16x512_w1s1p0_0_w512s1p511_0 (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c), (h c).2⟩) (run_named m ρ)

end Cert.KernelIdeal.KerValue

end
-- ==== Proof.lean ====
/- The proof of `Cert.Claim`.

   The kernel duplicates each text position's column of `x` over the frames its duration covers: per batch row, output
   frame `j` of channel `c` is `(Σ_k x[c,k] · mask[k] · path[k,j]) · ymask[j]`, where `path[k,j]` marks the frames
   `cum[k-1] ≤ j < cum[k]` of the masked durations' prefix sums. The reference builds the same path as a difference of two
   indicators, `[j < cum[k]] − [j < cum[k-1]]`, and does not clamp the masked durations at zero.

   Both results are one function `Cert.Dup.G` of the argument arrays and a path (Proof/Spec.lean): the kernel's with the
   interval indicator over clamped durations, read off the frame run block by block; the reference's with the
   difference of indicators, read off its run operation by operation. Under the precondition — durations in `0 … 8`, mask
   entries `0` or `1` (Proof/PreFacts.lean) — the two paths agree entry by entry (Proof/Words.lean): the masked durations
   are non-negative, so the clamp is the identity; their prefix sums stay within `[0, 4096]`, so they do not wrap and are
   non-decreasing; and then the interval indicator is the difference of indicators. The sums are compared term by term:
   nothing is cancelled or distributed, so finiteness of the float inputs is not used.

   The three frames: the two kernel programs' from the frame run of each (Proof/KernelFrameP.lean, Proof/KernelIdealFrameP.lean),
   the reference's from its run with the result dropped. The idealization rewrote nothing, so `preserves` is `True`. -/
import proofs.«152919_j50697793962727_2_alg».proof.Defs
import proofs.«152919_j50697793962727_2_alg».proof.Proof.Gen.Kernel
import proofs.«152919_j50697793962727_2_alg».proof.Proof.Gen.KernelIdeal
import proofs.«152919_j50697793962727_2_alg».proof.Proof.Gen.ReferenceIdeal
import proofs.«152919_j50697793962727_2_alg».proof.Proof.Gen.Pre_finite_inputs
import proofs.«152919_j50697793962727_2_alg».proof.Proof.KernelFrameP
import proofs.«152919_j50697793962727_2_alg».proof.Proof.KernelIdealFrameP
import proofs.«152919_j50697793962727_2_alg».proof.Proof.Spec
import proofs.«152919_j50697793962727_2_alg».proof.Proof.Words
import proofs.«152919_j50697793962727_2_alg».proof.Proof.PreFacts
import proofs.«152919_j50697793962727_2_alg».proof.Proof.RefRun
import proofs.«152919_j50697793962727_2_alg».proof.Proof.RefRead
import proofs.«152919_j50697793962727_2_alg».proof.Proof.KerFinal
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- Both runs end at `G` of the arguments with the reference's path: the reference by its run read back, the kernel by
    its value with its own path, which under the precondition is the reference's. -/
theorem algebraic : Cert.algebraic_KernelIdeal_ReferenceIdeal := by
  intro m ρ m' ρ' hpre hagree
  refine ⟨fun c => Cert.Dup.G (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (Cert.Dup.pathR Cert.KernelIdeal.Gen.reduceWindows_S16x512_S16x512_w1s1p0_0_w512s1p511_0
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))), ?_, ?_⟩
  · refine (θ_run Cert.KernelIdeal.defs _ _).mono (fun r h c => ⟨(h c).1.trans ?_, (h c).2⟩)
      (Cert.KernelIdeal.KerValue.run m ρ)
    obtain ⟨hw, hm⟩ := Cert.PreFacts.decode _ _ _ _ (hpre c)
    refine congrArg _ ?_
    funext b j k
    exact Cert.Dup.pathK_eq_pathR _ _ _ hw hm b j k
  · refine (θ_run Cert.ReferenceIdeal.defs _ _).mono (fun r h c => ⟨(h c).1.trans ?_, (h c).2⟩)
      (Cert.ReferenceIdeal.RefRun.run (F := Ideal) m' ρ')
    rw [Cert.ReferenceIdeal.RefRead.refTerm_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
